-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S4x16x64x64x64 : Shape := ⟨5, ![4, 16, 64, 64, 64]⟩
abbrev S1x1x64x64x64 : Shape := ⟨5, ![1, 1, 64, 64, 64]⟩
abbrev S64x64x64 : Shape := ⟨3, ![64, 64, 64]⟩
abbrev S64x64 : Shape := ⟨2, ![64, 64]⟩
abbrev S64x64x1 : Shape := ⟨3, ![64, 64, 1]⟩
abbrev S4x16x64x4096 : Shape := ⟨4, ![4, 16, 64, 4096]⟩
abbrev S1x1x64x4096 : Shape := ⟨4, ![1, 1, 64, 4096]⟩
abbrev S64x4096 : Shape := ⟨2, ![64, 4096]⟩
abbrev S4096x64 : Shape := ⟨2, ![4096, 64]⟩
abbrev S64 : Shape := ⟨1, ![64]⟩
abbrev S64x1 : Shape := ⟨2, ![64, 1]⟩

abbrev nBuf : Space → Nat
  | .hbm => 12
  | .vmem => 16
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x64x64x64, .f32⟩
  | .hbm, ⟨4, _⟩ => ⟨S4x16x64x64x64, .f32⟩
  | .hbm, ⟨5, _⟩ => ⟨S4x16x64x64x64, .f32⟩
  | .hbm, ⟨6, _⟩ => ⟨S4x16x64x64x64, .f32⟩
  | .hbm, ⟨7, _⟩ => ⟨S4x16x64x4096, .f32⟩
  | .hbm, ⟨8, _⟩ => ⟨S4x16x64x4096, .f32⟩
  | .hbm, ⟨9, _⟩ => ⟨S4x16x64x4096, .f32⟩
  | .hbm, ⟨10, _⟩ => ⟨S4x16x64x4096, .f32⟩
  | .hbm, ⟨11, _⟩ => ⟨S4x16x4096x64, .f32⟩
  | .local _ .vmem, ⟨0, _⟩ => ⟨S1x1x64x64x64, .f32⟩
  | .local _ .vmem, ⟨1, _⟩ => ⟨S1x1x64x64x64, .f32⟩
  | .local _ .vmem, ⟨2, _⟩ => ⟨S1x1x64x64x64, .f32⟩
  | .local _ .vmem, ⟨3, _⟩ => ⟨S1x1x64x64x64, .f32⟩
  | .local _ .vmem, ⟨4, _⟩ => ⟨S1x1x64x64x64, .f32⟩
  | .local _ .vmem, ⟨5, _⟩ => ⟨S1x1x64x64x64, .f32⟩
  | .local _ .vmem, ⟨6, _⟩ => ⟨S1x1x64x64x64, .f32⟩
  | .local _ .vmem, ⟨7, _⟩ => ⟨S1x1x64x64x64, .f32⟩
  | .local _ .vmem, ⟨8, _⟩ => ⟨S1x1x64x4096, .f32⟩
  | .local _ .vmem, ⟨9, _⟩ => ⟨S1x1x64x4096, .f32⟩
  | .local _ .vmem, ⟨10, _⟩ => ⟨S1x1x64x4096, .f32⟩
  | .local _ .vmem, ⟨11, _⟩ => ⟨S1x1x64x4096, .f32⟩
  | .local _ .vmem, ⟨12, _⟩ => ⟨S1x1x64x4096, .f32⟩
  | .local _ .vmem, ⟨13, _⟩ => ⟨S1x1x64x4096, .f32⟩
  | .local _ .vmem, ⟨14, _⟩ => ⟨S1x1x64x4096, .f32⟩
  | .local _ .vmem, ⟨15, _⟩ => ⟨S1x1x64x4096, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x64x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x64x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x16x4096x64_S4x16x64x64x64 : S4x16x4096x64.ShapeCasts S4x16x64x64x64
  inb_S1x1x64x64x64_S1x1x64x64x64_0_0_0_0_0 : ∀ a, (![0, 0, 0, 0, 0] : Fin 5 → Nat) a + S1x1x64x64x64.size a ≤ S1x1x64x64x64.size a
  h_S1x1x64x64x64 : 0 < S1x1x64x64x64.numel
  shapeCasts_S1x1x64x64x64_S64x64x64 : S1x1x64x64x64.ShapeCasts S64x64x64
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S64x64x64_S1x1x64x64x64 : S64x64x64.ShapeCasts S1x1x64x64x64
  shapeCasts_S4x16x64x64x64_S4x16x64x4096 : S4x16x64x64x64.ShapeCasts S4x16x64x4096
  inb_S1x1x64x4096_S1x1x64x4096_0_0_0_0 : ∀ a, (![0, 0, 0, 0] : Fin 4 → Nat) a + S1x1x64x4096.size a ≤ S1x1x64x4096.size a
  h_S1x1x64x4096 : 0 < S1x1x64x4096.numel
  shapeCasts_S1x1x64x4096_S64x4096 : S1x1x64x4096.ShapeCasts S64x4096
  transposes_S64x4096_p1_0_S4096x64 : S64x4096.Transposes [1, 0] S4096x64
  reduces_S64x64_S64 : S64x64.Reduces [1] S64
  shapeCasts_S64_S64x1 : S64.ShapeCasts S64x1
  broadcasts_S64x1_S64x64 : S64x1.Broadcasts S64x64
  shapeCasts_S64x4096_S1x1x64x4096 : S64x4096.ShapeCasts S1x1x64x4096
  shapeCasts_S4x16x64x4096_S4x16x4096x64 : S4x16x64x4096.ShapeCasts S4x16x4096x64
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  dot_S64x4096_S4096x64_S64x64_1_0_0_1_n_n_wf : DotDims.WF S64x4096 S4096x64 S64x64 [1] [0] [0] [1] [] []
  dot_S64x64_S64x4096_S64x4096_1_0_0_1_n_n_wf : DotDims.WF S64x64 S64x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x64x64.size a ≤ S4x16x64x64x64.size a
  hwx0_0 : ∀ i : grid0.Coords, EltTy.bits .f32 = 32 ∨ (Rect.block (s := S4x16x64x64x64) S1x1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x64x64.size a ≤ S4x16x64x64x64.size a
  hwx0_1 : ∀ i : grid0.Coords, EltTy.bits .f32 = 32 ∨ (Rect.block (s := S4x16x64x64x64) S1x1x64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x64x64.size a ≤ S4x16x64x64x64.size a
  hwx0_2 : ∀ i : grid0.Coords, EltTy.bits .f32 = 32 ∨ (Rect.block (s := S4x16x64x64x64) S1x1x64x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x64x64.size a ≤ S4x16x64x64x64.size a
  hwx0_3 : ∀ i : grid0.Coords, EltTy.bits .f32 = 32 ∨ (Rect.block (s := S4x16x64x64x64) S1x1x64x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x64x4096.size a ≤ S4x16x64x4096.size a
  hwx1_0 : ∀ i : grid1.Coords, EltTy.bits .f32 = 32 ∨ (Rect.block (s := S4x16x64x4096) S1x1x64x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x4096.size a ≤ S4x16x64x4096.size a
  hwx1_1 : ∀ i : grid1.Coords, EltTy.bits .f32 = 32 ∨ (Rect.block (s := S4x16x64x4096) S1x1x64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64x4096.size a ≤ S4x16x64x4096.size a
  hwx1_2 : ∀ i : grid1.Coords, EltTy.bits .f32 = 32 ∨ (Rect.block (s := S4x16x64x4096) S1x1x64x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64x4096.size a ≤ S4x16x64x4096.size a
  hwx1_3 : ∀ i : grid1.Coords, EltTy.bits .f32 = 32 ∨ (Rect.block (s := S4x16x64x4096) S1x1x64x4096.size (cc1_transform_3 i) (hinb1_3 i)).WholeWords (EltTy.packing .f32)

variable [Facts₀]

def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf

abbrev win0_0 : Pipeline.Window sig grid0 :=
  Pipeline.Window.ofSpec (Memref.whole main_v0) S1x1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x64x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x1x64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x64x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x64x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x16x4096x64 : Shape := ⟨4, ![4, 16, 4096, 64]⟩
abbrev S4x16x64x64x64 : Shape := ⟨5, ![4, 16, 64, 64, 64]⟩
abbrev S_ : Shape := ⟨0, ![]⟩
abbrev S4x16x64x64 : Shape := ⟨4, ![4, 16, 64, 64]⟩
abbrev S4x16x64x64x1 : Shape := ⟨5, ![4, 16, 64, 64, 1]⟩
abbrev S4x16x64x4096 : Shape := ⟨4, ![4, 16, 64, 4096]⟩
abbrev S4x16x64 : Shape := ⟨3, ![4, 16, 64]⟩
abbrev S4x16x64x1 : Shape := ⟨4, ![4, 16, 64, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x64x64x64, .f32⟩
  | .hbm, ⟨4, _⟩ => ⟨S4x16x64x64x64, .f32⟩
  | .hbm, ⟨5, _⟩ => ⟨S4x16x64x64x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x16x64x64x64, .f32⟩
  | .hbm, ⟨11, _⟩ => ⟨S4x16x64x64x64, .f32⟩
  | .hbm, ⟨12, _⟩ => ⟨S4x16x64x64x64, .f32⟩
  | .hbm, ⟨13, _⟩ => ⟨S_, .f32⟩
  | .hbm, ⟨14, _⟩ => ⟨S4x16x64x64, .f32⟩
  | .hbm, ⟨15, _⟩ => ⟨S_, .f32⟩
  | .hbm, ⟨16, _⟩ => ⟨S4x16x64x64, .f32⟩
  | .hbm, ⟨17, _⟩ => ⟨S4x16x64x64, .f32⟩
  | .hbm, ⟨18, _⟩ => ⟨S4x16x64x64x1, .f32⟩
  | .hbm, ⟨19, _⟩ => ⟨S4x16x64x64x64, .f32⟩
  | .hbm, ⟨20, _⟩ => ⟨S4x16x64x64x64, .f32⟩
  | .hbm, ⟨21, _⟩ => ⟨S4x16x64x64x64, .f32⟩
  | .hbm, ⟨22, _⟩ => ⟨S_, .f32⟩
  | .hbm, ⟨23, _⟩ => ⟨S4x16x64x64, .f32⟩
  | .hbm, ⟨24, _⟩ => ⟨S4x16x64x64x1, .f32⟩
  | .hbm, ⟨25, _⟩ => ⟨S4x16x64x64x64, .f32⟩
  | .hbm, ⟨26, _⟩ => ⟨S4x16x64x64x64, .f32⟩
  | .hbm, ⟨27, _⟩ => ⟨S4x16x64x64x64, .f32⟩
  | .hbm, ⟨28, _⟩ => ⟨S4x16x64x4096, .f32⟩
  | .hbm, ⟨29, _⟩ => ⟨S4x16x64x4096, .f32⟩
  | .hbm, ⟨30, _⟩ => ⟨S4x16x64x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x16x64x64, .f32⟩
  | .hbm, ⟨36, _⟩ => ⟨S4x16x64x64, .f32⟩
  | .hbm, ⟨37, _⟩ => ⟨S4x16x64x64, .f32⟩
  | .hbm, ⟨38, _⟩ => ⟨S_, .f32⟩
  | .hbm, ⟨39, _⟩ => ⟨S4x16x64, .f32⟩
  | .hbm, ⟨40, _⟩ => ⟨S_, .f32⟩
  | .hbm, ⟨41, _⟩ => ⟨S4x16x64, .f32⟩
  | .hbm, ⟨42, _⟩ => ⟨S4x16x64, .f32⟩
  | .hbm, ⟨43, _⟩ => ⟨S4x16x64x1, .f32⟩
  | .hbm, ⟨44, _⟩ => ⟨S4x16x64x64, .f32⟩
  | .hbm, ⟨45, _⟩ => ⟨S4x16x64x64, .f32⟩
  | .hbm, ⟨46, _⟩ => ⟨S4x16x64x64, .f32⟩
  | .hbm, ⟨47, _⟩ => ⟨S_, .f32⟩
  | .hbm, ⟨48, _⟩ => ⟨S4x16x64, .f32⟩
  | .hbm, ⟨49, _⟩ => ⟨S4x16x64x1, .f32⟩
  | .hbm, ⟨50, _⟩ => ⟨S4x16x64x64, .f32⟩
  | .hbm, ⟨51, _⟩ => ⟨S4x16x64x64, .f32⟩
  | .hbm, ⟨52, _⟩ => ⟨S4x16x64x4096, .f32⟩
  | .hbm, ⟨53, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  shapeCasts_S4x16x4096x64_S4x16x64x64x64 : S4x16x4096x64.ShapeCasts S4x16x64x64x64
  bcast_S_S4x16x64x64x64 : S_.BroadcastsInDim S4x16x64x64x64 (![] : Fin 0 → Fin S4x16x64x64x64.rank)
  reducesTo_S4x16x64x64x64_S4x16x64x64_d4 : S4x16x64x64x64.ReducesTo [4] S4x16x64x64
  h_S_ : 0 < S_.numel
  bcast_S_S4x16x64x64 : S_.BroadcastsInDim S4x16x64x64 (![] : Fin 0 → Fin S4x16x64x64.rank)
  bcast_S4x16x64x64_S4x16x64x64x1_0_1_2_3 : S4x16x64x64.BroadcastsInDim S4x16x64x64x1 (![0, 1, 2, 3] : Fin 4 → Fin S4x16x64x64x1.rank)
  bcast_S4x16x64x64x1_S4x16x64x64x64_0_1_2_3_4 : S4x16x64x64x1.BroadcastsInDim S4x16x64x64x64 (![0, 1, 2, 3, 4] : Fin 5 → Fin S4x16x64x64x64.rank)
  shapeCasts_S4x16x64x64x64_S4x16x64x4096 : S4x16x64x64x64.ShapeCasts S4x16x64x4096
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  shapeCasts_S4x16x64x4096_S4x16x4096x64 : S4x16x64x4096.ShapeCasts S4x16x4096x64
  dot_S4x16x64x64x64_S4x16x64x64x64_S4x16x64x64x64_4_4_3_3_012_012_wf : DotDims.WF S4x16x64x64x64 S4x16x64x64x64 S4x16x64x64x64 [4] [4] [3] [3] [0, 1, 2] [0, 1, 2]
  dot_S4x16x64x64x64_S4x16x64x64x64_S4x16x64x64x64_4_3_3_4_012_012_wf : DotDims.WF S4x16x64x64x64 S4x16x64x64x64 S4x16x64x64x64 [4] [3] [3] [4] [0, 1, 2] [0, 1, 2]
  dot_S4x16x64x4096_S4x16x64x4096_S4x16x64x64_3_3_2_2_01_01_wf : DotDims.WF S4x16x64x4096 S4x16x64x4096 S4x16x64x64 [3] [3] [2] [2] [0, 1] [0, 1]
  dot_S4x16x64x64_S4x16x64x4096_S4x16x64x4096_3_2_2_3_01_01_wf : DotDims.WF S4x16x64x64 S4x16x64x4096 S4x16x64x4096 [3] [2] [2] [3] [0, 1] [0, 1]

variable [Facts₀]

def dot_S4x16x64x64x64_S4x16x64x64x64_S4x16x64x64x64_4_4_3_3_012_012 : DotDims S4x16x64x64x64 S4x16x64x64x64 S4x16x64x64x64 where
  lhsContracting := [4]
  rhsContracting := [4]
  lhsNonContracting := [3]
  rhsNonContracting := [3]
  lhsBatch := [0, 1, 2]
  rhsBatch := [0, 1, 2]
  wf := dot_S4x16x64x64x64_S4x16x64x64x64_S4x16x64x64x64_4_4_3_3_012_012_wf
def dot_S4x16x64x64x64_S4x16x64x64x64_S4x16x64x64x64_4_3_3_4_012_012 : DotDims S4x16x64x64x64 S4x16x64x64x64 S4x16x64x64x64 where
  lhsContracting := [4]
  rhsContracting := [3]
  lhsNonContracting := [3]
  rhsNonContracting := [4]
  lhsBatch := [0, 1, 2]
  rhsBatch := [0, 1, 2]
  wf := dot_S4x16x64x64x64_S4x16x64x64x64_S4x16x64x64x64_4_3_3_4_012_012_wf
def dot_S4x16x64x4096_S4x16x64x4096_S4x16x64x64_3_3_2_2_01_01 : DotDims S4x16x64x4096 S4x16x64x4096 S4x16x64x64 where
  lhsContracting := [3]
  rhsContracting := [3]
  lhsNonContracting := [2]
  rhsNonContracting := [2]
  lhsBatch := [0, 1]
  rhsBatch := [0, 1]
  wf := dot_S4x16x64x4096_S4x16x64x4096_S4x16x64x64_3_3_2_2_01_01_wf
def dot_S4x16x64x64_S4x16x64x4096_S4x16x64x4096_3_2_2_3_01_01 : DotDims S4x16x64x64 S4x16x64x4096 S4x16x64x4096 where
  lhsContracting := [3]
  rhsContracting := [2]
  lhsNonContracting := [2]
  rhsNonContracting := [3]
  lhsBatch := [0, 1]
  rhsBatch := [0, 1]
  wf := dot_S4x16x64x64_S4x16x64x4096_S4x16x64x4096_3_2_2_3_01_01_wf

class Facts : Prop extends Facts₀ where

variable [Facts]
-- ==== Proof.KernelRun.lean ====
/-
  The idealized kernel's run with its result array named.

  The program is five segments: three re-layings of the operands into blocks; the level-one launch over the
  64 (batch, head) pairs; three re-layings that flatten every block of the level-one result and of two operands;
  the level-two launch over the same 64 pairs; and the re-laying of its result. The buffer contents at each
  boundary are a fold from the launch memory; after the last segment every unscoped buffer holds that fold's
  value, so the result buffer holds the fold's value at the result reference, beside the arguments as launched.
-/
import proofs.«156608_j33835752357998_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from a memory with zero counters terminates without a fault, the result buffer
    at the last boundary's contents and the three arguments as launched. -/
theorem run_result : θ_run defs (onTc (τ := τ) (main (F := F))) ⟨m, fun _ => 0, ρ⟩ (fun r => ∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.AttnSpec.lean ====
/-
  Two-level block attention over the extended reals, as one function of its operand arrays.

  A row of scores f : Fin n → EReal is turned into weights by the softmax in its numerically stabilised
  form: every entry is shifted by the row's maximum (taken from −∞), exponentiated, and divided by the
  sum of the row's exponentials.

  Level one works inside each block of 64 positions: for batch b, head h and block g, position s
  scores position t of the same block by the inner product over the 64 features, scaled; the result at
  (b, h, g, s, d) is the weighted sum over t of the values at (b, h, g, t, d).

  Level two works between blocks: each block of batch b and head h is one vector of 4096 = 64 · 64
  numbers; block g scores block f by the inner product of those vectors, scaled; the result at
  (b, h, g, e) is the weighted sum over f of the level-one results at (b, h, f, e).

  The two scales are 1/√64 = 1/8 and 1/√4096 = 1/64: both roots are exact, so a program that computes the
  quotient 1 / √n and one that multiplies by the dyadic literal agree.
-/
import Idealize.ShloMosaic.PureOps.Ideal
import Idealize.ShloMosaic.PureOps.Ideal.Laws
import Idealize.ShloMosaic.Lib.ValueIdx

noncomputable section

namespace Cert.BlockAttn

open Idealize.ShloMosaic Idealize.ShloMosaic.ValueIdx

/-- The operand arrays blocked: batch, head, block, position in the block, feature. -/
abbrev A5 : Shape := ⟨5, ![4, 16, 64, 64, 64]⟩
/-- The same arrays with each block flattened to one vector of 4096 numbers. -/
abbrev A4 : Shape := ⟨4, ![4, 16, 64, 4096]⟩

/-- −∞, as the f32 word both programs start their row maxima from. -/
def negInf : EReal := Ideal.ofBits .f32 0xFF800000#32

/-- The maximum of a row, taken from −∞ (and once more against −∞, as both programs do). -/
def rowMax {n : ℕ} (f : Fin n → EReal) : EReal :=
  max negInf ((Finset.univ : Finset (Fin n)).fold max negInf f)

/-- An entry shifted by the row's maximum and exponentiated. -/
def rowExp {n : ℕ} (f : Fin n → EReal) (t : Fin n) : EReal := Ideal.exp (f t - rowMax f)

/-- The sum of the row's exponentials. -/
def rowSum {n : ℕ} (f : Fin n → EReal) : EReal := ∑ t : Fin n, rowExp f t

/-- The softmax weight of entry t in its row. -/
def softmax {n : ℕ} (f : Fin n → EReal) (t : Fin n) : EReal := Ideal.div (rowExp f t) (rowSum f)

/-- Level one: the scores of position s of block (b, h, g) against the positions t of the same block. -/
def score1 (c : EReal) (q k : A5.Idx → EReal) (b : Fin 4) (h : Fin 16) (g s : Fin 64) : Fin 64 → EReal :=
  fun t => (∑ d : Fin 64, q (ix5 b h g s d) * k (ix5 b h g t d)) * c

/-- Level one: attention inside each block. -/
def stage1 (c : EReal) (q k v : A5.Idx → EReal) : A5.Idx → EReal := fun i =>
  ∑ t : Fin 64, softmax (score1 c q k (i 0) (i 1) (i 2) (i 3)) t * v (ix5 (i 0) (i 1) (i 2) t (i 4))

/-- Level two: the scores of block g of (b, h) against the blocks f of the same batch and head. -/
def score2 (c : EReal) (q k : A4.Idx → EReal) (b : Fin 4) (h : Fin 16) (g : Fin 64) : Fin 64 → EReal :=
  fun f => (∑ e : Fin 4096, q (ix4 b h g e) * k (ix4 b h f e)) * c

/-- Level two: attention between the blocks of one batch and head. -/
def stage2 (c : EReal) (q k x : A4.Idx → EReal) : A4.Idx → EReal := fun i =>
  ∑ f : Fin 64, softmax (score2 c q k (i 0) (i 1) (i 2)) f * x (ix4 (i 0) (i 1) f (i 3))

/-- The whole computation on arrays laid out [4, 16, 4096, 64] (batch, head, position, feature): block the three
    operands, attend inside the blocks, flatten each block, attend between the blocks, and lay the result out as
    the operands were. The three re-layings keep the row-major order. -/
def blockAttention (c1 c2 : EReal) {S : Shape} (h1 : S.ShapeCasts A5) (h2 : A5.ShapeCasts A4) (h3 : A4.ShapeCasts S)
    (x0 x1 x2 : S.Idx → EReal) : S.Idx → EReal :=
  shapeCast S (stage2 c2 (shapeCast A4 (shapeCast A5 x0 h1) h2) (shapeCast A4 (shapeCast A5 x1 h1) h2)
    (shapeCast A4 (stage1 c1 (shapeCast A5 x0 h1) (shapeCast A5 x1 h1) (shapeCast A5 x2 h1)) h2)) h3

/-- The level-one scale as the kernel spells it: the f32 word of 1/8. -/
def scale1 : EReal := Ideal.ofBits .f32 0x3E000000#32
/-- The level-two scale as the kernel spells it: the f32 word of 1/64. -/
def scale2 : EReal := Ideal.ofBits .f32 0x3C800000#32

/-! ## The scales: 1 / √64 = 1/8 and 1 / √4096 = 1/64 -/

theorem ofBits_one : Ideal.ofBits .f32 0x3F800000#32 = ((1 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_sixtyfourth : Ideal.ofBits .f32 0x3C800000#32 = ((1 / 64 : ℝ) : EReal) := by
  simp [Ideal.ofBits, Ideal.ieee, -EReal.coe_mul]; norm_num

theorem sqrt_64 : Real.sqrt 64 = 8 := by
  rw [show (64 : ℝ) = 8 ^ 2 by norm_num]; exact Real.sqrt_sq (by norm_num)

theorem sqrt_4096 : Real.sqrt 4096 = 64 := by
  rw [show (4096 : ℝ) = 64 ^ 2 by norm_num]; exact Real.sqrt_sq (by norm_num)

/-- The reference's level-one scale, 1 / √64 computed on the host, is the kernel's literal 1/8. -/
theorem quotient_scale1 :
    Ideal.div (Ideal.ofBits .f32 0x3F800000#32) (Ideal.sqrt (Ideal.ofBits .f32 0x42800000#32)) = scale1 := by
  unfold scale1
  rw [ofBits_one, ofBits_64, ofBits_eighth, Ideal.sqrt_coe, if_neg (by norm_num), sqrt_64,
    Ideal.div_coe (by norm_num : (8 : ℝ) ≠ 0), ← EReal.coe_mul, one_mul]

/-- The reference's level-two scale, 1 / √4096 computed on the host, is the kernel's literal 1/64. -/
theorem quotient_scale2 :
    Ideal.div (Ideal.ofBits .f32 0x3F800000#32) (Ideal.sqrt (Ideal.ofBits .f32 0x45800000#32)) = scale2 := by
  unfold scale2
  rw [ofBits_one, ofBits_4096, ofBits_sixtyfourth, Ideal.sqrt_coe, if_neg (by norm_num), sqrt_4096,
    Ideal.div_coe (by norm_num : (64 : ℝ) ≠ 0), ← EReal.coe_mul, one_mul]

end Cert.BlockAttn

end
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.LibBroadcast3.lean ====
/-
  Layout operations of rank three read at an index given by coordinates: the forms a broadcast sum over two leading axes
  and a reduction over the trailing axis with kept dimensions produce.
    [a, b]    cast to      [a, 1, b]   reads (p, u, k) at (p, k);
    [a, b]    cast to      [a, b, 1]   reads (p, q, u) at (p, q);
    [a, 1, b] broadcast to [a, c, b]   reads (p, q, k) at (p, 0, k)   (a row block repeated along the middle axis);
    [1, c, b] broadcast to [a, c, b]   reads (p, q, k) at (0, q, k)   (one matrix repeated along the leading axis);
    [a, b, 1] broadcast to [a, b, c]   reads (p, q, k) at (p, q, 0)   (a column of scalars repeated along the trailing axis);
  and the source index that a reduction of [a, b, c] over its trailing axis inserts coordinate k into, over the result
  index (p, q), is (p, q, k), so that a float sum over that axis reads, at (p, q), the sum over k of the source at (p, q, k).
-/
import Idealize.ShloMosaic.Lib.ValueLayout
import Idealize.ShloMosaic.PureOps.Reduce
import Idealize.ShloMosaic.PureOps.Ideal.Laws

namespace Cert.Broadcast3

open Idealize.ShloMosaic Idealize.ShloMosaic.ValueIdx

variable {α : Type}

/-- An `[a, b]` array cast to `[a, 1, b]` reads, at `(p, u, k)`, the operand at `(p, k)`, whatever the unit coordinate:
    the row-major position of `(p, u, k)` in `[a, 1, b]` is `(p · 1 + 0) · b + k`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, b]` array broadcast to `[a, c, b]` reads, at `(p, q, k)`, the operand at `(p, 0, k)`. -/
theorem broadcastTo_a1b_acb_apply {a c b : ℕ} (v : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- A `[1, c, b]` array broadcast to `[a, c, b]` reads, at `(p, q, k)`, the operand at `(0, q, k)`. -/
theorem broadcastTo_1cb_acb_apply {a c b : ℕ} (v : (⟨3, ![1, c, b]⟩ : Shape).Idx → α)
    (h : (⟨3, ![1, c, b]⟩ : Shape).Broadcasts ⟨3, ![a, c, b]⟩) (p : Fin a) (q : Fin c) (k : Fin b) :
    broadcastTo ⟨3, ![a, c, b]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if c = 1 then 0 else q.val
    split
    · have := q.isLt; omega
    · rfl
  | ⟨2, _⟩ =>
    show k.val = if b = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- Reducing `[a, b, c]` over its trailing axis: the source index over the result index `(p, q)` with coordinate `k` on
    the dropped axis is `(p, q, k)`. -/
theorem lift_trailing {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, a float sum of `[a, b, c]` over its trailing axis reads, at `(p, q)`, the sum over `k` of the
    source at `(p, q, k)`. -/
theorem multiReduction_add_trailing {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_trailing h p q k)

end Cert.Broadcast3
-- ==== Proof.KernelDots.lean ====
/-
  The two batched products of the level-one kernel body, read at one entry, at the exact values.

  Both work on 64 independent 64 × 64 problems (the leading axis is the batch). The first contracts the trailing
  axis of both operands: entry (g, s, t) is the sum over d of A (g, s, d) · B (g, t, d) — the scores of position s
  against position t. The second contracts the trailing axis of the left operand with the middle axis of the right:
  entry (g, s, d) is the sum over t of A (g, s, t) · B (g, t, d) — the weighted sum of the values. Accumulating
  into a splat of zeros adds nothing.
-/
import proofs.«156608_j33835752357998_1_alg».proof.Proof.Gen.KernelIdeal
import Idealize.ShloMosaic.Lib.ValueIdx
import Idealize.ShloMosaic.PureOps.Ideal.Laws

noncomputable section

namespace Cert.BlockAttn.KernelDots

open Cert.KernelIdeal Idealize.ShloMosaic Idealize.ShloMosaic.ValueIdx

/-- The dimension record of the scores' product: batch axis 0, both trailing axes contracted. -/
abbrev DA : DotDims S64x64x64 S64x64x64 S64x64x64 := dot_S64x64x64_S64x64x64_S64x64x64_2_2_1_1_0_0
/-- The dimension record of the values' product: batch axis 0, the left trailing axis against the right middle axis. -/
abbrev DB : DotDims S64x64x64 S64x64x64 S64x64x64 := dot_S64x64x64_S64x64x64_S64x64x64_2_1_1_2_0_0

theorem lhsA_0 (i : S64x64x64.Idx) (q : DA.contr.Idx) : (DA.lhsIdx i q 0).val = (i 0).val := by
  unfold DotDims.lhsIdx
  rw [dif_pos (show (0 : Fin S64x64x64.rank) ∈ DA.lhsBatch by decide)]
  rfl
theorem lhsA_1 (i : S64x64x64.Idx) (q : DA.contr.Idx) : (DA.lhsIdx i q 1).val = (i 1).val := by
  unfold DotDims.lhsIdx
  rw [dif_neg (show ¬(1 : Fin S64x64x64.rank) ∈ DA.lhsBatch by decide), dif_pos (show (1 : Fin S64x64x64.rank) ∈ DA.lhsNonContracting by decide)]
  rfl
theorem lhsA_2 (i : S64x64x64.Idx) (q : DA.contr.Idx) : (DA.lhsIdx i q 2).val = (q ⟨0, by decide⟩).val :=
  DA.lhsIdx_val_of_single rfl i q
theorem rhsA_0 (i : S64x64x64.Idx) (q : DA.contr.Idx) : (DA.rhsIdx i q 0).val = (i 0).val := by
  unfold DotDims.rhsIdx
  rw [dif_pos (show (0 : Fin S64x64x64.rank) ∈ DA.rhsBatch by decide)]
  rfl
theorem rhsA_1 (i : S64x64x64.Idx) (q : DA.contr.Idx) : (DA.rhsIdx i q 1).val = (i 2).val := by
  unfold DotDims.rhsIdx
  rw [dif_neg (show ¬(1 : Fin S64x64x64.rank) ∈ DA.rhsBatch by decide), dif_pos (show (1 : Fin S64x64x64.rank) ∈ DA.rhsNonContracting by decide)]
  rfl
theorem rhsA_2 (i : S64x64x64.Idx) (q : DA.contr.Idx) : (DA.rhsIdx i q 2).val = (q ⟨0, by decide⟩).val :=
  DA.rhsIdx_val_of_single rfl i q

/-- The scores' product into zeros, at (g, s, t): the inner product of row s of A and row t of B in problem g. -/
theorem scores_apply {φ₁ φ₂ : FTy} (A : FVec Ideal S64x64x64 φ₁) (B : FVec Ideal S64x64x64 φ₂) (g s t : Fin 64) :
    matmul DA none A B (constant (F := Ideal) S64x64x64 .f32 0x00000000#32) (ix3 g s t)
      = ∑ d : Fin 64, A (ix3 g s d) * B (ix3 g t d) := by
  simp only [matmul]
  rw [Ideal.matmul_constant_zero_apply, ← Equiv.sum_comp (contrEquiv1 DA 64 rfl rfl).symm]
  refine Finset.sum_congr rfl fun k _ => ?_
  have hk := contrEquiv1_symm_val DA 64 rfl rfl k
  have el : DA.lhsIdx (ix3 g s t) ((contrEquiv1 DA 64 rfl rfl).symm k) = ix3 g s k := funext fun a => Fin.ext (by
    match a with
    | ⟨0, _⟩ => exact lhsA_0 _ _
    | ⟨1, _⟩ => exact lhsA_1 _ _
    | ⟨2, _⟩ => exact (lhsA_2 _ _).trans hk)
  have er : DA.rhsIdx (ix3 g s t) ((contrEquiv1 DA 64 rfl rfl).symm k) = ix3 g t k := funext fun a => Fin.ext (by
    match a with
    | ⟨0, _⟩ => exact rhsA_0 _ _
    | ⟨1, _⟩ => exact rhsA_1 _ _
    | ⟨2, _⟩ => exact (rhsA_2 _ _).trans hk)
  rw [el, er]

theorem lhsB_0 (i : S64x64x64.Idx) (q : DB.contr.Idx) : (DB.lhsIdx i q 0).val = (i 0).val := by
  unfold DotDims.lhsIdx
  rw [dif_pos (show (0 : Fin S64x64x64.rank) ∈ DB.lhsBatch by decide)]
  rfl
theorem lhsB_1 (i : S64x64x64.Idx) (q : DB.contr.Idx) : (DB.lhsIdx i q 1).val = (i 1).val := by
  unfold DotDims.lhsIdx
  rw [dif_neg (show ¬(1 : Fin S64x64x64.rank) ∈ DB.lhsBatch by decide), dif_pos (show (1 : Fin S64x64x64.rank) ∈ DB.lhsNonContracting by decide)]
  rfl
theorem lhsB_2 (i : S64x64x64.Idx) (q : DB.contr.Idx) : (DB.lhsIdx i q 2).val = (q ⟨0, by decide⟩).val :=
  DB.lhsIdx_val_of_single rfl i q
theorem rhsB_0 (i : S64x64x64.Idx) (q : DB.contr.Idx) : (DB.rhsIdx i q 0).val = (i 0).val := by
  unfold DotDims.rhsIdx
  rw [dif_pos (show (0 : Fin S64x64x64.rank) ∈ DB.rhsBatch by decide)]
  rfl
theorem rhsB_1 (i : S64x64x64.Idx) (q : DB.contr.Idx) : (DB.rhsIdx i q 1).val = (q ⟨0, by decide⟩).val :=
  DB.rhsIdx_val_of_single rfl i q
theorem rhsB_2 (i : S64x64x64.Idx) (q : DB.contr.Idx) : (DB.rhsIdx i q 2).val = (i 2).val := by
  unfold DotDims.rhsIdx
  rw [dif_neg (show ¬(2 : Fin S64x64x64.rank) ∈ DB.rhsBatch by decide), dif_pos (show (2 : Fin S64x64x64.rank) ∈ DB.rhsNonContracting by decide)]
  rfl

/-- The values' product into zeros, at (g, s, d): row s of A against column d of B in problem g. -/
theorem values_apply {φ₁ φ₂ : FTy} (A : FVec Ideal S64x64x64 φ₁) (B : FVec Ideal S64x64x64 φ₂) (g s d : Fin 64) :
    matmul DB none A B (constant (F := Ideal) S64x64x64 .f32 0x00000000#32) (ix3 g s d)
      = ∑ t : Fin 64, A (ix3 g s t) * B (ix3 g t d) := by
  simp only [matmul]
  rw [Ideal.matmul_constant_zero_apply, ← Equiv.sum_comp (contrEquiv1 DB 64 rfl rfl).symm]
  refine Finset.sum_congr rfl fun k _ => ?_
  have hk := contrEquiv1_symm_val DB 64 rfl rfl k
  have el : DB.lhsIdx (ix3 g s d) ((contrEquiv1 DB 64 rfl rfl).symm k) = ix3 g s k := funext fun a => Fin.ext (by
    match a with
    | ⟨0, _⟩ => exact lhsB_0 _ _
    | ⟨1, _⟩ => exact lhsB_1 _ _
    | ⟨2, _⟩ => exact (lhsB_2 _ _).trans hk)
  have er : DB.rhsIdx (ix3 g s d) ((contrEquiv1 DB 64 rfl rfl).symm k) = ix3 g k d := funext fun a => Fin.ext (by
    match a with
    | ⟨0, _⟩ => exact rhsB_0 _ _
    | ⟨1, _⟩ => exact (rhsB_1 _ _).trans hk
    | ⟨2, _⟩ => exact rhsB_2 _ _)
  rw [el, er]

end Cert.BlockAttn.KernelDots

end
-- ==== Proof.KernelLevel1.lean ====
/-
  What the level-one kernel body stores, entry by entry.

  The body works on one (batch, head) pair: three [1, 1, 64, 64, 64] blocks (queries, keys, values: block g, position
  s, feature d). It scores position s against position t of the same block g by the inner product over d, scaled by
  1/8; takes each row's maximum from −∞; exponentiates the shifted scores; divides by the row's sum; and weighs the
  values with the result. Entry (g, s, d) of what it stores is therefore the sum over t of the softmax weight of t
  in the row of scores of (g, s), times the value at (g, t, d). The narrowings to bf16 in between are identities at
  the exact values.
-/
import proofs.«156608_j33835752357998_1_alg».proof.Proof.Gen.KernelIdeal.Skeleton
import proofs.«156608_j33835752357998_1_alg».proof.Proof.AttnSpec
import proofs.«156608_j33835752357998_1_alg».proof.Proof.LibBlockLayout
import proofs.«156608_j33835752357998_1_alg».proof.Proof.LibBroadcast3
import proofs.«156608_j33835752357998_1_alg».proof.Proof.KernelDots

noncomputable section

namespace Cert.BlockAttn.Kernel1

open Cert.KernelIdeal Cert.KernelIdeal.Gen
open Idealize.ShloMosaic Idealize.ShloMosaic.ValueIdx
open Cert.BlockAttn Cert.BlockAttn.KernelDots Cert.BlockLayout Cert.Broadcast3

variable (x0 x1 x2 : Vec Ideal S1x1x64x64x64 .f32)

/-- The row of scores of position s of block g: against each position t, the inner product over the features,
    scaled. -/
def blockScore (g s : Fin 64) : Fin 64 → EReal :=
  fun t => (∑ d : Fin 64, x0 (ix5 (0 : Fin 1) (0 : Fin 1) g s d) * x1 (ix5 (0 : Fin 1) (0 : Fin 1) g t d)) * scale1

/-! ## The body's intermediate vectors, in its own operations -/

/-- The scaled scores, [block, position, position]. -/
def scoresV : FVec Ideal S64x64x64 .f32 :=
  mulf (matmul DA none
      (truncf .bf16 (shapeCast S64x64x64 x0 shapeCasts_S1x1x64x64x64_S64x64x64) bitsLt_bf16_f32)
      (truncf .bf16 (shapeCast S64x64x64 x1 shapeCasts_S1x1x64x64x64_S64x64x64) bitsLt_bf16_f32)
      (constant S64x64x64 .f32 0x00000000#32))
    (broadcast S64x64x64 (Scalar.ofBits .f32 0x3E000000#32))

/-- Each row's maximum, [block, position]. -/
def maxV : FVec Ideal S64x64 .f32 :=
  maximumf (broadcast S64x64 (Scalar.ofBits .f32 0xFF800000#32))
    (multiReduction .maximumf [2] S64x64 (scoresV x0 x1) 0xFF800000#32 reduces_S64x64x64_S64x64 (.inl rfl) rfl)

/-- The exponentials of the shifted scores. -/
def expV : FVec Ideal S64x64x64 .f32 :=
  exp (subf (scoresV x0 x1)
    (broadcastTo S64x64x64 (shapeCast S64x64x1 (maxV x0 x1) shapeCasts_S64x64_S64x64x1) broadcasts_S64x64x1_S64x64x64))

/-- Each row's sum of exponentials. -/
def sumV : FVec Ideal S64x64 .f32 :=
  multiReduction .add [2] S64x64 (expV x0 x1) 0x00000000#32 reduces_S64x64x64_S64x64 (.inl rfl) rfl

/-- The softmax weights. -/
def probV : FVec Ideal S64x64x64 .f32 :=
  divf (expV x0 x1)
    (broadcastTo S64x64x64 (shapeCast S64x64x1 (sumV x0 x1) shapeCasts_S64x64_S64x64x1) broadcasts_S64x64x1_S64x64x64)

/-- The stored payload is the weights times the values, laid out as the block. -/
theorem pay1_eq : k0_pay1 (F := Ideal) x0 x1 x2
    = shapeCast S1x1x64x64x64 (matmul DB none (truncf .bf16 (probV x0 x1) bitsLt_bf16_f32)
        (truncf .bf16 (shapeCast S64x64x64 x2 shapeCasts_S1x1x64x64x64_S64x64x64) bitsLt_bf16_f32)
        (constant S64x64x64 .f32 0x00000000#32)) shapeCasts_S64x64x64_S1x1x64x64x64 := rfl

/-! ## Each of them at an entry -/

theorem scoresV_apply (g s t : Fin 64) : scoresV x0 x1 (ix3 g s t) = blockScore x0 x1 g s t := by
  unfold scoresV blockScore scale1
  rw [mulf_apply, scores_apply]
  simp only [truncf_apply, shapeCast_11abc_abc_apply]
  rfl

theorem maxV_apply (g s : Fin 64) : maxV x0 x1 (ix2 g s) = rowMax (blockScore x0 x1 g s) := by
  unfold maxV rowMax negInf
  rw [maximumf_apply]
  refine congrArg₂ max rfl ?_
  refine (multiReduction_max_trailing3 (scoresV x0 x1) 0xFF800000#32 reduces_S64x64x64_S64x64 (.inl rfl) rfl g s).trans ?_
  exact congrArg (Finset.fold max _ · Finset.univ) (funext fun t => scoresV_apply x0 x1 g s t)

theorem expV_apply (g s t : Fin 64) : expV x0 x1 (ix3 g s t) = rowExp (blockScore x0 x1 g s) t := by
  unfold expV rowExp
  show FloatOps.exp ((subf (scoresV x0 x1) _) (ix3 g s t)) = _
  rw [Ideal.exp_def, subf_apply, scoresV_apply, broadcastTo_ab1_abc_apply, shapeCast_ab_ab1_apply, maxV_apply]

theorem sumV_apply (g s : Fin 64) : sumV x0 x1 (ix2 g s) = rowSum (blockScore x0 x1 g s) := by
  unfold sumV rowSum
  refine (multiReduction_add_trailing (expV x0 x1) 0x00000000#32 reduces_S64x64x64_S64x64 (.inl rfl) rfl g s).trans ?_
  exact Finset.sum_congr rfl fun t _ => expV_apply x0 x1 g s t

theorem probV_apply (g s t : Fin 64) : probV x0 x1 (ix3 g s t) = softmax (blockScore x0 x1 g s) t := by
  unfold probV softmax
  rw [divf_apply, expV_apply, broadcastTo_ab1_abc_apply, shapeCast_ab_ab1_apply, sumV_apply]

/-- Entry (g, s, d) of what the body stores: the values of block g weighted by the softmax of row (g, s). -/
theorem pay1_apply (u v : Fin 1) (g s d : Fin 64) :
    k0_pay1 (F := Ideal) x0 x1 x2 (ix5 u v g s d)
      = ∑ t : Fin 64, softmax (blockScore x0 x1 g s) t * x2 (ix5 (0 : Fin 1) (0 : Fin 1) g t d) := by
  rw [pay1_eq, shapeCast_abc_11abc_apply, values_apply]
  simp only [truncf_apply, probV_apply, shapeCast_11abc_abc_apply]

end Cert.BlockAttn.Kernel1

end
-- ==== Proof.Level1Array.lean ====
/-
  The level-one launch, from blocks to the whole array.

  The launch visits the 64 (batch, head) pairs; at pair (b, h) every window — queries, keys, values and the result —
  is the block [b, h, all 64 blocks, all 64 positions, all 64 features] of its array. What the body stores at entry
  (g, s, d) of its block is the level-one attention of the three blocked operand arrays at (b, h, g, s, d), because the
  body's loads at (g, ·, ·) are the operand arrays at (b, h, g, ·, ·). The 64 result blocks tile the result array, so
  after the launch the array is the level-one attention of the operands, entry by entry.
-/
import proofs.«156608_j33835752357998_1_alg».proof.Proof.Gen.KernelIdeal.Frame
import Idealize.ShloMosaic.Lib.Pipeline.Value
import proofs.«156608_j33835752357998_1_alg».proof.Proof.KernelLevel1

set_option maxRecDepth 16384

noncomputable section

namespace Cert.BlockAttn.Array1

open Cert.KernelIdeal Cert.KernelIdeal.Gen Idealize.ShloMosaic Idealize.ShloMosaic.TcCoe Idealize.SL.Sem
open Idealize.ShloMosaic.ValueIdx
open Idealize.ShloMosaic.Pipeline (Dat)
open Cert.BlockAttn Cert.BlockAttn.Kernel1

variable (V : (c : Dev nD) → (b : Ref sig .tc) → Buf (Elt Ideal) ((c : Thread nD τ).loc b))

theorem zero_offsets : (![0, 0, 0, 0, 0] : Fin 5 → Nat) = fun _ => 0 := funext fun a => by fin_cases a <;> rfl

/-- At every point the four windows sit at the same block, (b, h) on the two leading axes and 0 on the others. -/
theorem block_index : ∀ t : Fin cfg0.N,
    win0_0.index t = win0_3.index t ∧ win0_1.index t = win0_3.index t ∧ win0_2.index t = win0_3.index t
    ∧ win0_3.index t (0 : Fin 5) < 4 ∧ win0_3.index t (1 : Fin 5) < 16 ∧ win0_3.index t (2 : Fin 5) = 0 ∧ win0_3.index t (3 : Fin 5) = 0 ∧ win0_3.index t (4 : Fin 5) = 0 :=
  (by decide +kernel : ∀ t : Fin grid0.N, _)

/-- Every (batch, head) pair is some point's block. -/
theorem block_onto : ∀ (b : Fin 4) (h : Fin 16), ∃ t : Fin cfg0.N, win0_3.index t = ![b.val, h.val, 0, 0, 0] :=
  (by decide +kernel : ∀ (b : Fin 4) (h : Fin 16), ∃ t : Fin grid0.N, win0_3.index t = ![b.val, h.val, 0, 0, 0])

/-- One entry of what the body stores, when its three loaded blocks are the block (b, h) of three arrays q, k, v: the
    attention of the arrays at the entry's place in the whole array. -/
theorem block_entry (q k v : A5.Idx → EReal) (x0 x1 x2 : Vec Ideal S1x1x64x64x64 .f32) (b : Fin 4) (h : Fin 16)
    (h0 : ∀ (g s d : Fin 64), x0 (ix5 (0 : Fin 1) (0 : Fin 1) g s d) = q (ix5 b h g s d))
    (h1 : ∀ (g s d : Fin 64), x1 (ix5 (0 : Fin 1) (0 : Fin 1) g s d) = k (ix5 b h g s d))
    (h2 : ∀ (g s d : Fin 64), x2 (ix5 (0 : Fin 1) (0 : Fin 1) g s d) = v (ix5 b h g s d))
    (y : S1x1x64x64x64.Idx) (i : A5.Idx)
    (e0 : (i 0).val = b.val) (e1 : (i 1).val = h.val) (e2 : (i 2).val = (y 2).val) (e3 : (i 3).val = (y 3).val) (e4 : (i 4).val = (y 4).val) :
    k0_pay1 (F := Ideal) x0 x1 x2 y = stage1 scale1 q k v i := by
  obtain ⟨u, w, g, s, d, rfl⟩ : ∃ (u w : Fin 1) (g s d : Fin 64), y = ix5 u w g s d := ⟨y 0, y 1, y 2, y 3, y 4, eq_ix5 y⟩
  have hi : i = ix5 b h g s d := funext fun a => Fin.ext (by
    match a with
    | ⟨0, _⟩ => exact e0
    | ⟨1, _⟩ => exact e1
    | ⟨2, _⟩ => exact e2
    | ⟨3, _⟩ => exact e3
    | ⟨4, _⟩ => exact e4)
  subst hi
  have hs : blockScore x0 x1 g s = score1 scale1 q k b h g s := by
    funext t; unfold blockScore score1; simp only [h0, h1]
  refine (pay1_apply x0 x1 x2 u w g s d).trans ?_
  rw [hs]
  simp only [h2]
  rfl

/-- What point t writes back is its block of the attention of the operand arrays as the launch finds them. -/
theorem flushed_eq (c : Dev nD) (t : Fin cfg0.N) :
    (dat0 V c).flushed 3 t
      = ((cfg0.win 3).blk t).view.read (Elt Ideal) (stage1 scale1 (V c main_v0) (V c main_v1) (V c main_v2)) := by
  show (cfg0.win 3).cut (grid0.coords t) ((dat0 V c).after 3 t) = _
  rw [after0_3]
  unfold out0_3
  rw [View.canon_unit_zero zero_offsets]
  simp only [View.ld_unit_zero (S := S1x1x64x64x64) zero_offsets]
  obtain ⟨x0, x1, x2, hb, hh, z2, z3, z4⟩ := block_index t
  funext y
  show k0_pay1 (F := Ideal) (iblk0 V c 0 t) (iblk0 V c 1 t) (iblk0 V c 2 t) y
    = stage1 scale1 (V c main_v0) (V c main_v1) (V c main_v2) (((cfg0.win 3).blk t).view.emb y)
  refine block_entry (V c main_v0) (V c main_v1) (V c main_v2) (iblk0 V c 0 t) (iblk0 V c 1 t) (iblk0 V c 2 t)
    ⟨win0_3.index t (0 : Fin 5), hb⟩ ⟨win0_3.index t (1 : Fin 5), hh⟩ ?_ ?_ ?_ y _ ?_ ?_ ?_ ?_ ?_
  · intro g s d
    show V c main_v0 (((cfg0.win 0).blk t).view.emb (ix5 (0 : Fin 1) (0 : Fin 1) g s d)) = V c main_v0 _
    refine congrArg _ (funext fun a => Fin.ext ?_)
    match a with
      | ⟨0, _⟩ => show win0_0.index t (0 : Fin 5) * 1 + 1 * 0 = win0_3.index t (0 : Fin 5); rw [x0]; omega
      | ⟨1, _⟩ => show win0_0.index t (1 : Fin 5) * 1 + 1 * 0 = win0_3.index t (1 : Fin 5); rw [x0]; omega
      | ⟨2, _⟩ => show win0_0.index t (2 : Fin 5) * 64 + 1 * g.val = g.val; rw [x0, z2]; omega
      | ⟨3, _⟩ => show win0_0.index t (3 : Fin 5) * 64 + 1 * s.val = s.val; rw [x0, z3]; omega
      | ⟨4, _⟩ => show win0_0.index t (4 : Fin 5) * 64 + 1 * d.val = d.val; rw [x0, z4]; omega
  · intro g s d
    show V c main_v1 (((cfg0.win 1).blk t).view.emb (ix5 (0 : Fin 1) (0 : Fin 1) g s d)) = V c main_v1 _
    refine congrArg _ (funext fun a => Fin.ext ?_)
    match a with
      | ⟨0, _⟩ => show win0_1.index t (0 : Fin 5) * 1 + 1 * 0 = win0_3.index t (0 : Fin 5); rw [x1]; omega
      | ⟨1, _⟩ => show win0_1.index t (1 : Fin 5) * 1 + 1 * 0 = win0_3.index t (1 : Fin 5); rw [x1]; omega
      | ⟨2, _⟩ => show win0_1.index t (2 : Fin 5) * 64 + 1 * g.val = g.val; rw [x1, z2]; omega
      | ⟨3, _⟩ => show win0_1.index t (3 : Fin 5) * 64 + 1 * s.val = s.val; rw [x1, z3]; omega
      | ⟨4, _⟩ => show win0_1.index t (4 : Fin 5) * 64 + 1 * d.val = d.val; rw [x1, z4]; omega
  · intro g s d
    show V c main_v2 (((cfg0.win 2).blk t).view.emb (ix5 (0 : Fin 1) (0 : Fin 1) g s d)) = V c main_v2 _
    refine congrArg _ (funext fun a => Fin.ext ?_)
    match a with
      | ⟨0, _⟩ => show win0_2.index t (0 : Fin 5) * 1 + 1 * 0 = win0_3.index t (0 : Fin 5); rw [x2]; omega
      | ⟨1, _⟩ => show win0_2.index t (1 : Fin 5) * 1 + 1 * 0 = win0_3.index t (1 : Fin 5); rw [x2]; omega
      | ⟨2, _⟩ => show win0_2.index t (2 : Fin 5) * 64 + 1 * g.val = g.val; rw [x2, z2]; omega
      | ⟨3, _⟩ => show win0_2.index t (3 : Fin 5) * 64 + 1 * s.val = s.val; rw [x2, z3]; omega
      | ⟨4, _⟩ => show win0_2.index t (4 : Fin 5) * 64 + 1 * d.val = d.val; rw [x2, z4]; omega
  · show win0_3.index t (0 : Fin 5) * 1 + 1 * (y 0).val = win0_3.index t (0 : Fin 5)
    have hy : (y 0).val < 1 := (y 0).isLt
    omega
  · show win0_3.index t (1 : Fin 5) * 1 + 1 * (y 1).val = win0_3.index t (1 : Fin 5)
    have hy : (y 1).val < 1 := (y 1).isLt
    omega
  · show win0_3.index t (2 : Fin 5) * 64 + 1 * (y 2).val = (y 2).val
    rw [z2]; omega
  · show win0_3.index t (3 : Fin 5) * 64 + 1 * (y 3).val = (y 3).val
    rw [z3]; omega
  · show win0_3.index t (4 : Fin 5) * 64 + 1 * (y 4).val = (y 4).val
    rw [z4]; omega

/-- An index of the result array is in point t's block iff each coordinate is in the block's range on its axis. -/
theorem mem_blk (t : Fin cfg0.N) (i : S4x16x64x64x64.Idx) :
    i ∈ ((cfg0.win 3).blk t).view.set ↔ ∀ a : Fin 5, win0_3.index t a * S1x1x64x64x64.size a ≤ (i a).val ∧ (i a).val < win0_3.index t a * S1x1x64x64x64.size a + S1x1x64x64x64.size a := by
  show i ∈ ((View.whole main_v3).slice (win0_3.rect t)).set ↔ _
  rw [View.set_slice_whole, Rect.mem_set_unit]
  exact Iff.rfl

/-- The blocks tile the result array: index i is in the block of the point at (i 0, i 1). -/
theorem cover (i : S4x16x64x64x64.Idx) : ∃ t : Fin cfg0.N, (cfg0.win 3).flush t = true ∧ i ∈ ((cfg0.win 3).blk t).view.set := by
  obtain ⟨t, ht⟩ := block_onto (i 0) (i 1)
  refine ⟨t, flush0_3 t, ?_⟩
  rw [mem_blk]
  have q0 : win0_3.index t (0 : Fin 5) = (![(i 0).val, (i 1).val, 0, 0, 0] : Fin 5 → Nat) (0 : Fin 5) := congrFun ht (0 : Fin 5)
  have q1 : win0_3.index t (1 : Fin 5) = (![(i 0).val, (i 1).val, 0, 0, 0] : Fin 5 → Nat) (1 : Fin 5) := congrFun ht (1 : Fin 5)
  have q2 : win0_3.index t (2 : Fin 5) = (![(i 0).val, (i 1).val, 0, 0, 0] : Fin 5 → Nat) (2 : Fin 5) := congrFun ht (2 : Fin 5)
  have q3 : win0_3.index t (3 : Fin 5) = (![(i 0).val, (i 1).val, 0, 0, 0] : Fin 5 → Nat) (3 : Fin 5) := congrFun ht (3 : Fin 5)
  have q4 : win0_3.index t (4 : Fin 5) = (![(i 0).val, (i 1).val, 0, 0, 0] : Fin 5 → Nat) (4 : Fin 5) := congrFun ht (4 : Fin 5)
  simp only [Matrix.cons_val_zero, Matrix.cons_val_one, Matrix.cons_val] at q0 q1 q2 q3 q4
  intro a
  match a with
  | ⟨0, _⟩ =>
    show win0_3.index t (0 : Fin 5) * 1 ≤ (i 0).val ∧ (i 0).val < win0_3.index t (0 : Fin 5) * 1 + 1
    omega
  | ⟨1, _⟩ =>
    show win0_3.index t (1 : Fin 5) * 1 ≤ (i 1).val ∧ (i 1).val < win0_3.index t (1 : Fin 5) * 1 + 1
    omega
  | ⟨2, _⟩ =>
    show win0_3.index t (2 : Fin 5) * 64 ≤ (i 2).val ∧ (i 2).val < win0_3.index t (2 : Fin 5) * 64 + 64
    have hi : (i 2).val < 64 := (i 2).isLt
    omega
  | ⟨3, _⟩ =>
    show win0_3.index t (3 : Fin 5) * 64 ≤ (i 3).val ∧ (i 3).val < win0_3.index t (3 : Fin 5) * 64 + 64
    have hi : (i 3).val < 64 := (i 3).isLt
    omega
  | ⟨4, _⟩ =>
    show win0_3.index t (4 : Fin 5) * 64 ≤ (i 4).val ∧ (i 4).val < win0_3.index t (4 : Fin 5) * 64 + 64
    have hi : (i 4).val < 64 := (i 4).isLt
    omega

/-- After the launch the result array is the attention of the operand arrays as the launch finds them. -/
theorem final (c : Dev nD) :
    (dat0 V c).arrAt 3 cfg0.N = stage1 scale1 (V c main_v0) (V c main_v1) (V c main_v2) :=
  (dat0 V c).arrAt_eq_of_cover 3 _ (fun t _ => flushed_eq V c t) cover

end Cert.BlockAttn.Array1

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibSqueeze.lean ====
/-
  Two leading unit axes dropped by a shape cast, read at an index given by coordinates: a block `[1, 1, a, b]` re-laid as
  the matrix `[a, b]` reads, at `(i, j)`, the block at `(0, 0, i, j)` — the row-major position of both is `i · b + j`.
-/
import Idealize.ShloMosaic.Lib.ValueLayout

namespace Cert.Squeeze

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_two, Shape.rowMajor_val_four]
    show ((0 * 1 + 0) * a + i.val) * b + j.val = i.val * b + j.val
    simp)

end Cert.Squeeze
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelLevel2.lean ====
/-
  What the level-two kernel body stores, entry by entry.

  The body works on one (batch, head) pair: three [1, 1, 64, 4096] blocks — each row one block of the sequence
  flattened to 4096 numbers (queries, keys, and the level-one results). It scores block g against block f by the inner
  product of their 4096-vectors (the keys transposed first), scaled by 1/64; takes each row's maximum from −∞;
  exponentiates the shifted scores; divides by the row's sum; and weighs the level-one rows with the result. Entry
  (g, e) of what it stores is the sum over f of the softmax weight of f in the row of scores of g, times the
  level-one row f at e.
-/
import proofs.«156608_j33835752357998_1_alg».proof.Proof.Gen.KernelIdeal.Skeleton
import proofs.«156608_j33835752357998_1_alg».proof.Proof.AttnSpec
import proofs.«156608_j33835752357998_1_alg».proof.Proof.LibBlockLayout
import proofs.«156608_j33835752357998_1_alg».proof.Proof.LibKeepdims
import proofs.«156608_j33835752357998_1_alg».proof.Proof.LibSqueeze
import proofs.«156608_j33835752357998_1_alg».proof.Proof.LibContractPlain

noncomputable section

namespace Cert.BlockAttn.Kernel2

open Cert.KernelIdeal Cert.KernelIdeal.Gen
open Idealize.ShloMosaic Idealize.ShloMosaic.ValueIdx
open Cert.BlockAttn Cert.BlockLayout Cert.Keepdims Cert.Squeeze Cert.Lib.ContractPlain

variable (x0 x1 x2 : Vec Ideal S1x1x64x4096 .f32)

/-- The row of scores of block g: against each block f, the inner product of the two 4096-vectors, scaled. -/
def blockScore (g : Fin 64) : Fin 64 → EReal :=
  fun f => (∑ e : Fin 4096, x0 (ix4 (0 : Fin 1) (0 : Fin 1) g e) * x1 (ix4 (0 : Fin 1) (0 : Fin 1) f e)) * scale2

/-- The dimension record of the scores' product: 64 × 4096 by 4096 × 64. -/
abbrev D1 : DotDims S64x4096 S4096x64 S64x64 := dot_S64x4096_S4096x64_S64x64_1_0_0_1_n_n
/-- The dimension record of the weighted sum: 64 × 64 by 64 × 4096. -/
abbrev D2 : DotDims S64x64 S64x4096 S64x4096 := dot_S64x64_S64x4096_S64x4096_1_0_0_1_n_n

/-! ## The body's intermediate vectors, in its own operations -/

/-- The scaled scores, [block, block]. -/
def scoresV : FVec Ideal S64x64 .f32 :=
  mulf (matmul D1 none
      (truncf .bf16 (shapeCast S64x4096 x0 shapeCasts_S1x1x64x4096_S64x4096) bitsLt_bf16_f32)
      (transpose S4096x64 [1, 0] (truncf .bf16 (shapeCast S64x4096 x1 shapeCasts_S1x1x64x4096_S64x4096) bitsLt_bf16_f32)
        transposes_S64x4096_p1_0_S4096x64)
      (constant S64x64 .f32 0x00000000#32))
    (broadcast S64x64 (Scalar.ofBits .f32 0x3C800000#32))

/-- Each row's maximum. -/
def maxV : FVec Ideal S64 .f32 :=
  maximumf (broadcast S64 (Scalar.ofBits .f32 0xFF800000#32))
    (multiReduction .maximumf [1] S64 (scoresV x0 x1) 0xFF800000#32 reduces_S64x64_S64 (.inl rfl) rfl)

/-- The exponentials of the shifted scores. -/
def expV : FVec Ideal S64x64 .f32 :=
  exp (subf (scoresV x0 x1)
    (broadcastTo S64x64 (shapeCast S64x1 (maxV x0 x1) shapeCasts_S64_S64x1) broadcasts_S64x1_S64x64))

/-- Each row's sum of exponentials. -/
def sumV : FVec Ideal S64 .f32 :=
  multiReduction .add [1] S64 (expV x0 x1) 0x00000000#32 reduces_S64x64_S64 (.inl rfl) rfl

/-- The softmax weights. -/
def probV : FVec Ideal S64x64 .f32 :=
  divf (expV x0 x1)
    (broadcastTo S64x64 (shapeCast S64x1 (sumV x0 x1) shapeCasts_S64_S64x1) broadcasts_S64x1_S64x64)

/-- The stored payload is the weights times the level-one rows, laid out as the block. -/
theorem pay1_eq : k1_pay1 (F := Ideal) x0 x1 x2
    = shapeCast S1x1x64x4096 (matmul D2 none (truncf .bf16 (probV x0 x1) bitsLt_bf16_f32)
        (truncf .bf16 (shapeCast S64x4096 x2 shapeCasts_S1x1x64x4096_S64x4096) bitsLt_bf16_f32)
        (constant S64x4096 .f32 0x00000000#32)) shapeCasts_S64x4096_S1x1x64x4096 := rfl

/-! ## Each of them at an entry -/

theorem scoresV_apply (g f : Fin 64) : scoresV x0 x1 (ix2 g f) = blockScore x0 x1 g f := by
  unfold scoresV blockScore scale2
  rw [mulf_apply]
  refine congrArg₂ (· * ·) ?_ rfl
  refine (matmulZero_apply D1 rfl none _ _ g f).trans ?_
  refine Finset.sum_congr rfl fun e _ => ?_
  refine congrArg₂ (· * ·) ?_ ?_
  · exact shapeCast_11ab_ab_apply x0 _ g e
  · refine (transpose_ix2_apply _ transposes_S64x4096_p1_0_S4096x64 e f).trans ?_
    exact shapeCast_11ab_ab_apply x1 _ f e

theorem maxV_apply (g : Fin 64) : maxV x0 x1 (ix1 g) = rowMax (blockScore x0 x1 g) := by
  unfold maxV rowMax negInf
  rw [maximumf_apply]
  refine congrArg₂ max rfl ?_
  refine (multiReduction_max_trailing2 (scoresV x0 x1) 0xFF800000#32 reduces_S64x64_S64 (.inl rfl) rfl g).trans ?_
  exact congrArg (Finset.fold max _ · Finset.univ) (funext fun f => scoresV_apply x0 x1 g f)

theorem expV_apply (g f : Fin 64) : expV x0 x1 (ix2 g f) = rowExp (blockScore x0 x1 g) f := by
  unfold expV rowExp
  show FloatOps.exp ((subf (scoresV x0 x1) _) (ix2 g f)) = _
  rw [Ideal.exp_def, subf_apply, scoresV_apply, broadcastTo_a1_ab_apply, shapeCast_a_a1_apply, maxV_apply]

theorem sumV_apply (g : Fin 64) : sumV x0 x1 (ix1 g) = rowSum (blockScore x0 x1 g) := by
  unfold sumV rowSum
  refine (multiReduction_add_trailing2 (expV x0 x1) 0x00000000#32 reduces_S64x64_S64 (.inl rfl) rfl g).trans ?_
  exact Finset.sum_congr rfl fun f _ => expV_apply x0 x1 g f

theorem probV_apply (g f : Fin 64) : probV x0 x1 (ix2 g f) = softmax (blockScore x0 x1 g) f := by
  unfold probV softmax
  rw [divf_apply, expV_apply, broadcastTo_a1_ab_apply, shapeCast_a_a1_apply, sumV_apply]

/-- Entry (g, e) of what the body stores: the level-one rows weighted by the softmax of row g. -/
theorem pay1_apply (u v : Fin 1) (g : Fin 64) (e : Fin 4096) :
    k1_pay1 (F := Ideal) x0 x1 x2 (ix4 u v g e)
      = ∑ f : Fin 64, softmax (blockScore x0 x1 g) f * x2 (ix4 (0 : Fin 1) (0 : Fin 1) f e) := by
  rw [pay1_eq, shapeCast_ab_11ab_apply, matmulZero_apply D2 rfl]
  simp only [truncf_apply, probV_apply, shapeCast_11ab_ab_apply]

end Cert.BlockAttn.Kernel2

end
-- ==== Proof.Level2Array.lean ====
/-
  The level-two launch, from blocks to the whole array.

  The launch visits the 64 (batch, head) pairs; at pair (b, h) every window — flattened queries, flattened keys, the
  flattened level-one result and the output — is the block [b, h, all 64 rows, all 4096 columns] of its array. What the
  body stores at entry (g, e) of its block is the level-two attention of the three operand arrays at (b, h, g, e). The
  64 result blocks tile the result array, so after the launch the array is the level-two attention of the operands.
-/
import proofs.«156608_j33835752357998_1_alg».proof.Proof.Gen.KernelIdeal.Frame
import Idealize.ShloMosaic.Lib.Pipeline.Value
import proofs.«156608_j33835752357998_1_alg».proof.Proof.KernelLevel2

set_option maxRecDepth 16384

noncomputable section

namespace Cert.BlockAttn.Array2

open Cert.KernelIdeal Cert.KernelIdeal.Gen Idealize.ShloMosaic Idealize.ShloMosaic.TcCoe Idealize.SL.Sem
open Idealize.ShloMosaic.ValueIdx
open Idealize.ShloMosaic.Pipeline (Dat)
open Cert.BlockAttn Cert.BlockAttn.Kernel2

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- At every point the four windows sit at the same block, (b, h) on the two leading axes and 0 on the others. -/
theorem block_index : ∀ t : Fin cfg1.N,
    win1_0.index t = win1_3.index t ∧ win1_1.index t = win1_3.index t ∧ win1_2.index t = win1_3.index t
    ∧ win1_3.index t (0 : Fin 4) < 4 ∧ win1_3.index t (1 : Fin 4) < 16 ∧ win1_3.index t (2 : Fin 4) = 0 ∧ win1_3.index t (3 : Fin 4) = 0 :=
  (by decide +kernel : ∀ t : Fin grid1.N, _)

/-- Every (batch, head) pair is some point's block. -/
theorem block_onto : ∀ (b : Fin 4) (h : Fin 16), ∃ t : Fin cfg1.N, win1_3.index t = ![b.val, h.val, 0, 0] :=
  (by decide +kernel : ∀ (b : Fin 4) (h : Fin 16), ∃ t : Fin grid1.N, win1_3.index t = ![b.val, h.val, 0, 0])

/-- One entry of what the body stores, when its three loaded blocks are the block (b, h) of three arrays q, k, v: the
    attention of the arrays at the entry's place in the whole array. -/
theorem block_entry (q k v : A4.Idx → EReal) (x0 x1 x2 : Vec Ideal S1x1x64x4096 .f32) (b : Fin 4) (h : Fin 16)
    (h0 : ∀ (g : Fin 64) (e : Fin 4096), x0 (ix4 (0 : Fin 1) (0 : Fin 1) g e) = q (ix4 b h g e))
    (h1 : ∀ (g : Fin 64) (e : Fin 4096), x1 (ix4 (0 : Fin 1) (0 : Fin 1) g e) = k (ix4 b h g e))
    (h2 : ∀ (g : Fin 64) (e : Fin 4096), x2 (ix4 (0 : Fin 1) (0 : Fin 1) g e) = v (ix4 b h g e))
    (y : S1x1x64x4096.Idx) (i : A4.Idx)
    (e0 : (i 0).val = b.val) (e1 : (i 1).val = h.val) (e2 : (i 2).val = (y 2).val) (e3 : (i 3).val = (y 3).val) :
    k1_pay1 (F := Ideal) x0 x1 x2 y = stage2 scale2 q k v i := by
  obtain ⟨u, w, g, e, rfl⟩ : ∃ (u w : Fin 1) (g : Fin 64) (e : Fin 4096), y = ix4 u w g e := ⟨y 0, y 1, y 2, y 3, eq_ix4 y⟩
  have hi : i = ix4 b h g e := funext fun a => Fin.ext (by
    match a with
    | ⟨0, _⟩ => exact e0
    | ⟨1, _⟩ => exact e1
    | ⟨2, _⟩ => exact e2
    | ⟨3, _⟩ => exact e3)
  subst hi
  have hs : blockScore x0 x1 g = score2 scale2 q k b h g := by
    funext t; unfold blockScore score2; simp only [h0, h1]
  refine (pay1_apply x0 x1 x2 u w g e).trans ?_
  rw [hs]
  simp only [h2]
  rfl

/-- What point t writes back is its block of the attention of the operand arrays as the launch finds them. -/
theorem flushed_eq (c : Dev nD) (t : Fin cfg1.N) :
    (dat1 V c).flushed 3 t
      = ((cfg1.win 3).blk t).view.read (Elt Ideal) (stage2 scale2 (V c main_v5) (V c main_v6) (V c main_v4)) := by
  show (cfg1.win 3).cut (grid1.coords t) ((dat1 V c).after 3 t) = _
  rw [after1_3]
  unfold out1_3
  rw [View.canon_unit_zero zero_offsets]
  simp only [View.ld_unit_zero (S := S1x1x64x4096) zero_offsets]
  obtain ⟨x0, x1, x2, hb, hh, z2, z3⟩ := block_index t
  funext y
  show k1_pay1 (F := Ideal) (iblk1 V c 0 t) (iblk1 V c 1 t) (iblk1 V c 2 t) y
    = stage2 scale2 (V c main_v5) (V c main_v6) (V c main_v4) (((cfg1.win 3).blk t).view.emb y)
  refine block_entry (V c main_v5) (V c main_v6) (V c main_v4) (iblk1 V c 0 t) (iblk1 V c 1 t) (iblk1 V c 2 t)
    ⟨win1_3.index t (0 : Fin 4), hb⟩ ⟨win1_3.index t (1 : Fin 4), hh⟩ ?_ ?_ ?_ y _ ?_ ?_ ?_ ?_
  · intro g e
    show V c main_v5 (((cfg1.win 0).blk t).view.emb (ix4 (0 : Fin 1) (0 : Fin 1) g e)) = V c main_v5 _
    refine congrArg _ (funext fun a => Fin.ext ?_)
    match a with
      | ⟨0, _⟩ => show win1_0.index t (0 : Fin 4) * 1 + 1 * 0 = win1_3.index t (0 : Fin 4); rw [x0]; omega
      | ⟨1, _⟩ => show win1_0.index t (1 : Fin 4) * 1 + 1 * 0 = win1_3.index t (1 : Fin 4); rw [x0]; omega
      | ⟨2, _⟩ => show win1_0.index t (2 : Fin 4) * 64 + 1 * g.val = g.val; rw [x0, z2]; omega
      | ⟨3, _⟩ => show win1_0.index t (3 : Fin 4) * 4096 + 1 * e.val = e.val; rw [x0, z3]; omega
  · intro g e
    show V c main_v6 (((cfg1.win 1).blk t).view.emb (ix4 (0 : Fin 1) (0 : Fin 1) g e)) = V c main_v6 _
    refine congrArg _ (funext fun a => Fin.ext ?_)
    match a with
      | ⟨0, _⟩ => show win1_1.index t (0 : Fin 4) * 1 + 1 * 0 = win1_3.index t (0 : Fin 4); rw [x1]; omega
      | ⟨1, _⟩ => show win1_1.index t (1 : Fin 4) * 1 + 1 * 0 = win1_3.index t (1 : Fin 4); rw [x1]; omega
      | ⟨2, _⟩ => show win1_1.index t (2 : Fin 4) * 64 + 1 * g.val = g.val; rw [x1, z2]; omega
      | ⟨3, _⟩ => show win1_1.index t (3 : Fin 4) * 4096 + 1 * e.val = e.val; rw [x1, z3]; omega
  · intro g e
    show V c main_v4 (((cfg1.win 2).blk t).view.emb (ix4 (0 : Fin 1) (0 : Fin 1) g e)) = V c main_v4 _
    refine congrArg _ (funext fun a => Fin.ext ?_)
    match a with
      | ⟨0, _⟩ => show win1_2.index t (0 : Fin 4) * 1 + 1 * 0 = win1_3.index t (0 : Fin 4); rw [x2]; omega
      | ⟨1, _⟩ => show win1_2.index t (1 : Fin 4) * 1 + 1 * 0 = win1_3.index t (1 : Fin 4); rw [x2]; omega
      | ⟨2, _⟩ => show win1_2.index t (2 : Fin 4) * 64 + 1 * g.val = g.val; rw [x2, z2]; omega
      | ⟨3, _⟩ => show win1_2.index t (3 : Fin 4) * 4096 + 1 * e.val = e.val; rw [x2, z3]; omega
  · show win1_3.index t (0 : Fin 4) * 1 + 1 * (y 0).val = win1_3.index t (0 : Fin 4)
    have hy : (y 0).val < 1 := (y 0).isLt
    omega
  · show win1_3.index t (1 : Fin 4) * 1 + 1 * (y 1).val = win1_3.index t (1 : Fin 4)
    have hy : (y 1).val < 1 := (y 1).isLt
    omega
  · show win1_3.index t (2 : Fin 4) * 64 + 1 * (y 2).val = (y 2).val
    rw [z2]; omega
  · show win1_3.index t (3 : Fin 4) * 4096 + 1 * (y 3).val = (y 3).val
    rw [z3]; omega

/-- An index of the result array is in point t's block iff each coordinate is in the block's range on its axis. -/
theorem mem_blk (t : Fin cfg1.N) (i : S4x16x64x4096.Idx) :
    i ∈ ((cfg1.win 3).blk t).view.set ↔ ∀ a : Fin 4, win1_3.index t a * S1x1x64x4096.size a ≤ (i a).val ∧ (i a).val < win1_3.index t a * S1x1x64x4096.size a + S1x1x64x4096.size a := by
  show i ∈ ((View.whole main_v7).slice (win1_3.rect t)).set ↔ _
  rw [View.set_slice_whole, Rect.mem_set_unit]
  exact Iff.rfl

/-- The blocks tile the result array: index i is in the block of the point at (i 0, i 1). -/
theorem cover (i : S4x16x64x4096.Idx) : ∃ t : Fin cfg1.N, (cfg1.win 3).flush t = true ∧ i ∈ ((cfg1.win 3).blk t).view.set := by
  obtain ⟨t, ht⟩ := block_onto (i 0) (i 1)
  refine ⟨t, flush1_3 t, ?_⟩
  rw [mem_blk]
  have q0 : win1_3.index t (0 : Fin 4) = (![(i 0).val, (i 1).val, 0, 0] : Fin 4 → Nat) (0 : Fin 4) := congrFun ht (0 : Fin 4)
  have q1 : win1_3.index t (1 : Fin 4) = (![(i 0).val, (i 1).val, 0, 0] : Fin 4 → Nat) (1 : Fin 4) := congrFun ht (1 : Fin 4)
  have q2 : win1_3.index t (2 : Fin 4) = (![(i 0).val, (i 1).val, 0, 0] : Fin 4 → Nat) (2 : Fin 4) := congrFun ht (2 : Fin 4)
  have q3 : win1_3.index t (3 : Fin 4) = (![(i 0).val, (i 1).val, 0, 0] : Fin 4 → Nat) (3 : Fin 4) := congrFun ht (3 : Fin 4)
  simp only [Matrix.cons_val_zero, Matrix.cons_val_one, Matrix.cons_val] at q0 q1 q2 q3
  intro a
  match a with
  | ⟨0, _⟩ =>
    show win1_3.index t (0 : Fin 4) * 1 ≤ (i 0).val ∧ (i 0).val < win1_3.index t (0 : Fin 4) * 1 + 1
    omega
  | ⟨1, _⟩ =>
    show win1_3.index t (1 : Fin 4) * 1 ≤ (i 1).val ∧ (i 1).val < win1_3.index t (1 : Fin 4) * 1 + 1
    omega
  | ⟨2, _⟩ =>
    show win1_3.index t (2 : Fin 4) * 64 ≤ (i 2).val ∧ (i 2).val < win1_3.index t (2 : Fin 4) * 64 + 64
    have hi : (i 2).val < 64 := (i 2).isLt
    omega
  | ⟨3, _⟩ =>
    show win1_3.index t (3 : Fin 4) * 4096 ≤ (i 3).val ∧ (i 3).val < win1_3.index t (3 : Fin 4) * 4096 + 4096
    have hi : (i 3).val < 4096 := (i 3).isLt
    omega

/-- After the launch the result array is the attention of the operand arrays as the launch finds them. -/
theorem final (c : Dev nD) :
    (dat1 V c).arrAt 3 cfg1.N = stage2 scale2 (V c main_v5) (V c main_v6) (V c main_v4) :=
  (dat1 V c).arrAt_eq_of_cover 3 _ (fun t _ => flushed_eq V c t) cover

end Cert.BlockAttn.Array2

end
-- ==== Proof.KernelValue.lean ====
/-
  The idealized kernel's result as one function of its three argument arrays.

  Reading the boundary contents back from the last segment to the launch memory: the result is the re-laying of the
  level-two launch's output; that output is the level-two attention of the arrays the launch finds, which are the
  flattenings of two blocked operands (left untouched by the level-one launch, which only reads them) and of the level-one
  launch's output; the latter is the level-one attention of the three blocked operands; and the blocked operands are the
  re-layings of the arguments. Composed, this is the two-level block attention of the arguments.
-/
import proofs.«156608_j33835752357998_1_alg».proof.Proof.KernelRun
import proofs.«156608_j33835752357998_1_alg».proof.Proof.Level1Array
import proofs.«156608_j33835752357998_1_alg».proof.Proof.Level2Array
import Idealize.ShloMosaic.Lib.StableHlo.Run

set_option maxRecDepth 16384

noncomputable section

namespace Cert.BlockAttn.KernelValue

open Cert.KernelIdeal Cert.KernelIdeal.Gen Idealize.ShloMosaic Idealize.ShloMosaic.TcCoe Idealize.SL.Sem
open Idealize.ShloMosaic.StableHlo
open Idealize.ShloMosaic.Pipeline (Dat)
open Cert.BlockAttn

variable (m : (ℓ : Loc nD τ sig) → Buf (Elt Ideal) ℓ) (ρ : Dev nD → PrngReg)

/-! ## Before the level-one launch: the arguments blocked -/

theorem entry0_v0 (c : Dev nD) : (V1 m ρ c main_v0 : S4x16x64x64x64.Idx → EReal)
    = shapeCast S4x16x64x64x64 (m ((c : Thread nD τ).loc main_arg0)) shapeCasts_S4x16x4096x64_S4x16x64x64x64 := by
  show StableHlo.after hostOps0 (W0 m ρ c) (Proc.devRef .tc main_v0) = _
  after_results
  rfl

theorem entry0_v1 (c : Dev nD) : (V1 m ρ c main_v1 : S4x16x64x64x64.Idx → EReal)
    = shapeCast S4x16x64x64x64 (m ((c : Thread nD τ).loc main_arg1)) shapeCasts_S4x16x4096x64_S4x16x64x64x64 := by
  show StableHlo.after hostOps0 (W0 m ρ c) (Proc.devRef .tc main_v1) = _
  after_results
  rfl

theorem entry0_v2 (c : Dev nD) : (V1 m ρ c main_v2 : S4x16x64x64x64.Idx → EReal)
    = shapeCast S4x16x64x64x64 (m ((c : Thread nD τ).loc main_arg2)) shapeCasts_S4x16x4096x64_S4x16x64x64x64 := by
  show StableHlo.after hostOps0 (W0 m ρ c) (Proc.devRef .tc main_v2) = _
  after_results
  rfl

/-! ## After the level-one launch: its output is the level-one attention; the operands it read are untouched -/

theorem exit0_v3 (c : Dev nD) : (W2 m ρ c (Proc.devRef .tc main_v3) : S4x16x64x64x64.Idx → EReal)
    = stage1 scale1 (V1 m ρ c main_v0) (V1 m ρ c main_v1) (V1 m ρ c main_v2) :=
  (W2_arr m ρ c 3).trans (Array1.final (V1 m ρ) c)

theorem exit0_v0 (c : Dev nD) : (W2 m ρ c (Proc.devRef .tc main_v0) : S4x16x64x64x64.Idx → EReal) = V1 m ρ c main_v0 :=
  (W2_arr m ρ c 0).trans (((dat0 (V1 m ρ) c).arrAt_in 0 rfl _).trans (A_eq0 (V1 m ρ) c 0))

theorem exit0_v1 (c : Dev nD) : (W2 m ρ c (Proc.devRef .tc main_v1) : S4x16x64x64x64.Idx → EReal) = V1 m ρ c main_v1 :=
  (W2_arr m ρ c 1).trans (((dat0 (V1 m ρ) c).arrAt_in 1 rfl _).trans (A_eq0 (V1 m ρ) c 1))

/-! ## Before the level-two launch: every block flattened -/

theorem entry1_v5 (c : Dev nD) : (V3 m ρ c main_v5 : S4x16x64x4096.Idx → EReal)
    = shapeCast S4x16x64x4096 (W2 m ρ c (Proc.devRef .tc main_v0) : S4x16x64x64x64.Idx → EReal) shapeCasts_S4x16x64x64x64_S4x16x64x4096 := by
  show StableHlo.after hostOps1 (W2 m ρ c) (Proc.devRef .tc main_v5) = _
  after_results
  rfl

theorem entry1_v6 (c : Dev nD) : (V3 m ρ c main_v6 : S4x16x64x4096.Idx → EReal)
    = shapeCast S4x16x64x4096 (W2 m ρ c (Proc.devRef .tc main_v1) : S4x16x64x64x64.Idx → EReal) shapeCasts_S4x16x64x64x64_S4x16x64x4096 := by
  show StableHlo.after hostOps1 (W2 m ρ c) (Proc.devRef .tc main_v6) = _
  after_results
  rfl

theorem entry1_v4 (c : Dev nD) : (V3 m ρ c main_v4 : S4x16x64x4096.Idx → EReal)
    = shapeCast S4x16x64x4096 (W2 m ρ c (Proc.devRef .tc main_v3) : S4x16x64x64x64.Idx → EReal) shapeCasts_S4x16x64x64x64_S4x16x64x4096 := by
  show StableHlo.after hostOps1 (W2 m ρ c) (Proc.devRef .tc main_v4) = _
  after_results
  rfl

/-! ## After the level-two launch, and the last re-laying -/

theorem exit1_v7 (c : Dev nD) : (W4 m ρ c (Proc.devRef .tc main_v7) : S4x16x64x4096.Idx → EReal)
    = stage2 scale2 (V3 m ρ c main_v5) (V3 m ρ c main_v6) (V3 m ρ c main_v4) :=
  (W4_arr m ρ c 3).trans (Array2.final (V3 m ρ) c)

theorem result_v8 (c : Dev nD) : (W5 m ρ c (Proc.devRef .tc main_v8) : S4x16x4096x64.Idx → EReal)
    = shapeCast S4x16x4096x64 (W4 m ρ c (Proc.devRef .tc main_v7) : S4x16x64x4096.Idx → EReal) shapeCasts_S4x16x64x4096_S4x16x4096x64 := by
  show StableHlo.after hostOps2 (W4 m ρ c) (Proc.devRef .tc main_v8) = _
  after_results
  rfl

/-- The result buffer's last contents: the two-level block attention of the argument arrays. -/
theorem result_eq (c : Dev nD) : (W5 m ρ c (Proc.devRef .tc main_v8) : S4x16x4096x64.Idx → EReal)
    = blockAttention scale1 scale2 shapeCasts_S4x16x4096x64_S4x16x64x64x64 shapeCasts_S4x16x64x64x64_S4x16x64x4096
        shapeCasts_S4x16x64x4096_S4x16x4096x64
        (m ((c : Thread nD τ).loc main_arg0)) (m ((c : Thread nD τ).loc main_arg1)) (m ((c : Thread nD τ).loc main_arg2)) := by
  unfold blockAttention
  rw [result_v8, exit1_v7, entry1_v5, entry1_v6, entry1_v4, exit0_v0, exit0_v1, exit0_v3, entry0_v0, entry0_v1, entry0_v2]

/-- Every weakly fair execution of the idealized kernel from a memory with zero counters terminates without a fault,
    the result buffer at the two-level block attention of the arguments and the arguments as launched. -/
theorem run : θ_run defs (onTc (τ := τ) (main (F := Ideal))) ⟨m, fun _ => 0, ρ⟩ (fun r => ∀ c : Dev nD,
      r.2.mem ((c.tc : Thread nD τ).loc main_v8)
        = blockAttention scale1 scale2 shapeCasts_S4x16x4096x64_S4x16x64x64x64 shapeCasts_S4x16x64x64x64_S4x16x64x4096
            shapeCasts_S4x16x64x4096_S4x16x4096x64
            (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩)
    (Cert.KernelIdeal.RunValue.run_result m ρ)

end Cert.BlockAttn.KernelValue

end
-- ==== Proof.RefLevel1.lean ====
/-
  Level one of the reference program is the attention inside each block.

  The reference computes, for every block, the scores of its positions against each other (a contraction
  over the 64 features, scaled by 1/√64), the row maxima from −∞, the shifted exponentials, their row sums,
  the quotients, and the weighted sum of the values. Each of these arrays is read here at an index, bottom
  up, and identified with the corresponding row function of the specification: the scores with `score1`,
  the maxima with `rowMax`, the exponentials with `rowExp`, the sums with `rowSum`, the quotients with
  `softmax`, and the result with `stage1`.
-/
import proofs.«156608_j33835752357998_1_alg».proof.Proof.Gen.ReferenceIdeal.Read
import proofs.«156608_j33835752357998_1_alg».proof.Proof.AttnSpec

noncomputable section

namespace Cert.BlockAttn.Ref1

open Cert.ReferenceIdeal Cert.ReferenceIdeal.Gen Cert.ReferenceIdeal.Read Idealize.ShloMosaic Idealize.ShloMosaic.ValueIdx Cert.BlockAttn

/-- The operand arrays of the whole program. -/
abbrev Arg : Type := (⟨S4x16x4096x64, .f32⟩ : BufTy).Contents (Elt Ideal)

/-- The scores of the reference: row (b, h, g, s) of the scaled contraction is `score1` of the blocked operands. -/
theorem scores_apply (x0 x1 : Arg) (i : S4x16x64x64x64.Idx) :
    val_main_v7 (F := Ideal) x0 x1 i
      = score1 scale1 (val_main_v0 (F := Ideal) x0) (val_main_v1 (F := Ideal) x1) (i 0) (i 1) (i 2) (i 3) (i 4) := by
  rw [val_main_v7_apply, val_main_v5_apply, val_main_v6_apply, val_main_v4_apply, val_main_v3_apply,
    val_main_cst_apply, val_main_cst_0_apply]
  simp only [Ideal.mulf_def, Ideal.hostDivf_def, Ideal.hostUnary_sqrt_def, Ideal.ofBits_def]
  rw [quotient_scale1]
  unfold score1
  have el : ∀ t : Fin 64, lidx_main_v5 i t = ix5 (i 0) (i 1) (i 2) (i 3) t := fun t => funext fun a => by
    match a with | ⟨0, _⟩ => rfl | ⟨1, _⟩ => rfl | ⟨2, _⟩ => rfl | ⟨3, _⟩ => rfl | ⟨4, _⟩ => rfl
  have er : ∀ t : Fin 64, ridx_main_v5 i t = ix5 (i 0) (i 1) (i 2) (i 4) t := fun t => funext fun a => by
    match a with | ⟨0, _⟩ => rfl | ⟨1, _⟩ => rfl | ⟨2, _⟩ => rfl | ⟨3, _⟩ => rfl | ⟨4, _⟩ => rfl
  simp only [el, er]
  rfl

/-- The one axis the two reductions of level one run over: the positions t of a row. -/
theorem reducesRow : S4x16x64x64x64.Reduces [4] S4x16x64x64 := by decide

/-- The row maxima before the second comparison with −∞: the fold of max over the row, from −∞. -/
theorem rowFold_apply (x0 x1 : Arg) (j : S4x16x64x64.Idx) :
    val_main_v8 (F := Ideal) x0 x1 j
      = (Finset.univ : Finset (Fin 64)).fold max negInf
          (score1 scale1 (val_main_v0 (F := Ideal) x0) (val_main_v1 (F := Ideal) x1) (j 0) (j 1) (j 2) (j 3)) := by
  unfold val_main_v8
  rw [Host.reduce_eq_fold_single FloatOps.maximumf _ _ reducesTo_S4x16x64x64x64_S4x16x64x64_d4 reducesRow h_S_ j]
  have e : (val_main_v7 (F := Ideal) x0 x1 ∘ reducesRow.lift j)
      = score1 scale1 (val_main_v0 (F := Ideal) x0) (val_main_v1 (F := Ideal) x1) (j 0) (j 1) (j 2) (j 3) :=
    funext fun t => by
      rw [Function.comp_apply, scores_apply]
      rfl
  rw [e]
  rfl

/-- The row maxima of the reference are `rowMax` of the rows of scores. -/
theorem rowMax_apply (x0 x1 : Arg) (j : S4x16x64x64.Idx) :
    val_main_v10 (F := Ideal) x0 x1 j
      = rowMax (score1 scale1 (val_main_v0 (F := Ideal) x0) (val_main_v1 (F := Ideal) x1) (j 0) (j 1) (j 2) (j 3)) := by
  rw [val_main_v10_apply, val_main_v9_apply, val_main_cst_2_apply, rowFold_apply]
  rfl

/-- The row maxima laid back over the rows. -/
theorem rowMax_bcast_apply (x0 x1 : Arg) (i : S4x16x64x64x64.Idx) :
    val_main_v12 (F := Ideal) x0 x1 i
      = rowMax (score1 scale1 (val_main_v0 (F := Ideal) x0) (val_main_v1 (F := Ideal) x1) (i 0) (i 1) (i 2) (i 3)) := by
  rw [val_main_v12_apply, val_main_v11_apply, rowMax_apply]
  rfl

/-- The shifted exponentials of the reference are `rowExp` of the rows of scores. -/
theorem rowExp_apply (x0 x1 : Arg) (i : S4x16x64x64x64.Idx) :
    val_main_v14 (F := Ideal) x0 x1 i
      = rowExp (score1 scale1 (val_main_v0 (F := Ideal) x0) (val_main_v1 (F := Ideal) x1) (i 0) (i 1) (i 2) (i 3)) (i 4) := by
  rw [val_main_v14_apply, val_main_v13_apply, scores_apply, rowMax_bcast_apply]
  rfl

/-- The sums of the exponentials of the reference are `rowSum` of the rows of scores. -/
theorem rowSum_apply (x0 x1 : Arg) (j : S4x16x64x64.Idx) :
    val_main_v15 (F := Ideal) x0 x1 j
      = rowSum (score1 scale1 (val_main_v0 (F := Ideal) x0) (val_main_v1 (F := Ideal) x1) (j 0) (j 1) (j 2) (j 3)) := by
  rw [val_main_v15_apply, val_main_cst_3_apply, Ideal.ofBits_def, Ideal.ofBits_zero_f32, zero_add]
  unfold rowSum
  refine Finset.sum_congr rfl fun t _ => ?_
  rw [rowExp_apply]
  rfl

/-- The sums laid back over the rows. -/
theorem rowSum_bcast_apply (x0 x1 : Arg) (i : S4x16x64x64x64.Idx) :
    val_main_v17 (F := Ideal) x0 x1 i
      = rowSum (score1 scale1 (val_main_v0 (F := Ideal) x0) (val_main_v1 (F := Ideal) x1) (i 0) (i 1) (i 2) (i 3)) := by
  rw [val_main_v17_apply, val_main_v16_apply, rowSum_apply]
  rfl

/-- The weights of the reference are the `softmax` of the rows of scores. -/
theorem softmax_apply (x0 x1 : Arg) (i : S4x16x64x64x64.Idx) :
    val_main_v18 (F := Ideal) x0 x1 i
      = softmax (score1 scale1 (val_main_v0 (F := Ideal) x0) (val_main_v1 (F := Ideal) x1) (i 0) (i 1) (i 2) (i 3)) (i 4) := by
  rw [val_main_v18_apply, rowExp_apply, rowSum_bcast_apply]
  rfl

/-- Level one of the reference is the attention inside each block. -/
theorem ref_stage1 (x0 x1 x2 : Arg) :
    val_main_v19 (F := Ideal) x0 x1 x2
      = stage1 scale1 (val_main_v0 (F := Ideal) x0) (val_main_v1 (F := Ideal) x1) (val_main_v2 (F := Ideal) x2) := by
  funext i
  rw [val_main_v19_apply]
  unfold stage1
  refine Finset.sum_congr rfl fun t _ => ?_
  rw [softmax_apply]
  have er : ridx_main_v19 i t = ix5 (i 0) (i 1) (i 2) t (i 4) := funext fun a => by
    match a with | ⟨0, _⟩ => rfl | ⟨1, _⟩ => rfl | ⟨2, _⟩ => rfl | ⟨3, _⟩ => rfl | ⟨4, _⟩ => rfl
  rw [er]
  rfl

end Cert.BlockAttn.Ref1

end
-- ==== Proof.RefLevel2.lean ====
/-
  Level two of the reference program is the attention between the blocks of one batch and head.

  With every block flattened to one vector of 4096 numbers, the reference computes the scores of the blocks
  against each other (a contraction over the 4096 entries, scaled by 1/√4096), the row maxima from −∞, the
  shifted exponentials, their row sums, the quotients, and the weighted sum of the flattened level-one results.
  Each of these arrays is read here at an index, bottom up, and identified with the corresponding row function
  of the specification: the scores with `score2`, the maxima with `rowMax`, the exponentials with `rowExp`,
  the sums with `rowSum`, the quotients with `softmax`, and the result with `stage2`.
-/
import proofs.«156608_j33835752357998_1_alg».proof.Proof.Gen.ReferenceIdeal.Read
import proofs.«156608_j33835752357998_1_alg».proof.Proof.AttnSpec

noncomputable section

namespace Cert.BlockAttn.Ref2

open Cert.ReferenceIdeal Cert.ReferenceIdeal.Gen Cert.ReferenceIdeal.Read Idealize.ShloMosaic Idealize.ShloMosaic.ValueIdx Cert.BlockAttn

/-- The operand arrays of the whole program. -/
abbrev Arg : Type := (⟨S4x16x4096x64, .f32⟩ : BufTy).Contents (Elt Ideal)

/-- The scores of the reference: row (b, h, g) of the scaled contraction is `score2` of the flattened operands. -/
theorem scores_apply (x0 x1 : Arg) (i : S4x16x64x64.Idx) :
    val_main_v27 (F := Ideal) x0 x1 i
      = score2 scale2 (val_main_v21 (F := Ideal) x0) (val_main_v22 (F := Ideal) x1) (i 0) (i 1) (i 2) (i 3) := by
  rw [val_main_v27_apply, val_main_v25_apply, val_main_v26_apply, val_main_v24_apply, val_main_v23_apply,
    val_main_cst_4_apply, val_main_cst_5_apply]
  simp only [Ideal.mulf_def, Ideal.hostDivf_def, Ideal.hostUnary_sqrt_def, Ideal.ofBits_def]
  rw [quotient_scale2]
  unfold score2
  have el : ∀ e : Fin 4096, lidx_main_v25 i e = ix4 (i 0) (i 1) (i 2) e := fun e => funext fun a => by
    match a with | ⟨0, _⟩ => rfl | ⟨1, _⟩ => rfl | ⟨2, _⟩ => rfl | ⟨3, _⟩ => rfl
  have er : ∀ e : Fin 4096, ridx_main_v25 i e = ix4 (i 0) (i 1) (i 3) e := fun e => funext fun a => by
    match a with | ⟨0, _⟩ => rfl | ⟨1, _⟩ => rfl | ⟨2, _⟩ => rfl | ⟨3, _⟩ => rfl
  refine congrArg (fun z : EReal => z * scale2) (Finset.sum_congr rfl fun e _ => ?_)
  rw [el e, er e]
  rfl

/-- The one axis the two reductions of level two run over: the blocks f of a row. -/
theorem reducesRow : S4x16x64x64.Reduces [3] S4x16x64 := by decide

/-- The row maxima before the second comparison with −∞: the fold of max over the row, from −∞. -/
theorem rowFold_apply (x0 x1 : Arg) (j : S4x16x64.Idx) :
    val_main_v28 (F := Ideal) x0 x1 j
      = (Finset.univ : Finset (Fin 64)).fold max negInf
          (score2 scale2 (val_main_v21 (F := Ideal) x0) (val_main_v22 (F := Ideal) x1) (j 0) (j 1) (j 2)) := by
  unfold val_main_v28
  rw [Host.reduce_eq_fold_single FloatOps.maximumf _ _ reducesTo_S4x16x64x64_S4x16x64_d3 reducesRow h_S_ j]
  have e : (val_main_v27 (F := Ideal) x0 x1 ∘ reducesRow.lift j)
      = score2 scale2 (val_main_v21 (F := Ideal) x0) (val_main_v22 (F := Ideal) x1) (j 0) (j 1) (j 2) :=
    funext fun t => by
      rw [Function.comp_apply, scores_apply]
      rfl
  rw [e]
  rfl

/-- The row maxima of the reference are `rowMax` of the rows of scores. -/
theorem rowMax_apply (x0 x1 : Arg) (j : S4x16x64.Idx) :
    val_main_v30 (F := Ideal) x0 x1 j
      = rowMax (score2 scale2 (val_main_v21 (F := Ideal) x0) (val_main_v22 (F := Ideal) x1) (j 0) (j 1) (j 2)) := by
  rw [val_main_v30_apply, val_main_v29_apply, val_main_cst_7_apply, rowFold_apply]
  rfl

/-- The row maxima laid back over the rows. -/
theorem rowMax_bcast_apply (x0 x1 : Arg) (i : S4x16x64x64.Idx) :
    val_main_v32 (F := Ideal) x0 x1 i
      = rowMax (score2 scale2 (val_main_v21 (F := Ideal) x0) (val_main_v22 (F := Ideal) x1) (i 0) (i 1) (i 2)) := by
  rw [val_main_v32_apply, val_main_v31_apply, rowMax_apply]
  rfl

/-- The shifted exponentials of the reference are `rowExp` of the rows of scores. -/
theorem rowExp_apply (x0 x1 : Arg) (i : S4x16x64x64.Idx) :
    val_main_v34 (F := Ideal) x0 x1 i
      = rowExp (score2 scale2 (val_main_v21 (F := Ideal) x0) (val_main_v22 (F := Ideal) x1) (i 0) (i 1) (i 2)) (i 3) := by
  rw [val_main_v34_apply, val_main_v33_apply, scores_apply, rowMax_bcast_apply]
  rfl

/-- The sums of the exponentials of the reference are `rowSum` of the rows of scores. -/
theorem rowSum_apply (x0 x1 : Arg) (j : S4x16x64.Idx) :
    val_main_v35 (F := Ideal) x0 x1 j
      = rowSum (score2 scale2 (val_main_v21 (F := Ideal) x0) (val_main_v22 (F := Ideal) x1) (j 0) (j 1) (j 2)) := by
  rw [val_main_v35_apply, val_main_cst_8_apply, Ideal.ofBits_def, Ideal.ofBits_zero_f32, zero_add]
  unfold rowSum
  refine Finset.sum_congr rfl fun t _ => ?_
  rw [rowExp_apply]
  rfl

/-- The sums laid back over the rows. -/
theorem rowSum_bcast_apply (x0 x1 : Arg) (i : S4x16x64x64.Idx) :
    val_main_v37 (F := Ideal) x0 x1 i
      = rowSum (score2 scale2 (val_main_v21 (F := Ideal) x0) (val_main_v22 (F := Ideal) x1) (i 0) (i 1) (i 2)) := by
  rw [val_main_v37_apply, val_main_v36_apply, rowSum_apply]
  rfl

/-- The weights of the reference are the `softmax` of the rows of scores. -/
theorem softmax_apply (x0 x1 : Arg) (i : S4x16x64x64.Idx) :
    val_main_v38 (F := Ideal) x0 x1 i
      = softmax (score2 scale2 (val_main_v21 (F := Ideal) x0) (val_main_v22 (F := Ideal) x1) (i 0) (i 1) (i 2)) (i 3) := by
  rw [val_main_v38_apply, rowExp_apply, rowSum_bcast_apply]
  rfl

/-- Level two of the reference is the attention between the blocks. -/
theorem ref_stage2 (x0 x1 x2 : Arg) :
    val_main_v39 (F := Ideal) x0 x1 x2
      = stage2 scale2 (val_main_v21 (F := Ideal) x0) (val_main_v22 (F := Ideal) x1) (val_main_v20 (F := Ideal) x0 x1 x2) := by
  funext i
  rw [val_main_v39_apply]
  unfold stage2
  refine Finset.sum_congr rfl fun f _ => ?_
  rw [softmax_apply]
  have er : ridx_main_v39 i f = ix4 (i 0) (i 1) f (i 3) := funext fun a => by
    match a with | ⟨0, _⟩ => rfl | ⟨1, _⟩ => rfl | ⟨2, _⟩ => rfl | ⟨3, _⟩ => rfl
  rw [er]
  rfl

end Cert.BlockAttn.Ref2

end
-- ==== Proof.RefValue.lean ====
/-
  The idealized reference's result as one function of its three argument arrays.

  The reference blocks the arguments, computes the level-one attention on the blocked arrays, flattens every block,
  computes the level-two attention on the flattened arrays, and re-lays the result as the arguments were: the two-level
  block attention of the arguments, with the two scales 1 / √64 and 1 / √4096 computed as quotients.
-/
import proofs.«156608_j33835752357998_1_alg».proof.Proof.RefLevel1
import proofs.«156608_j33835752357998_1_alg».proof.Proof.RefLevel2

noncomputable section

namespace Cert.BlockAttn.RefValue

open Cert.ReferenceIdeal Cert.ReferenceIdeal.Gen Cert.ReferenceIdeal.Read Idealize.ShloMosaic Cert.BlockAttn

/-- The reference's last stage is the two-level block attention of the arguments. -/
theorem ref_value (x0 x1 x2 : (⟨S4x16x4096x64, .f32⟩ : BufTy).Contents (Elt Ideal)) :
    val_main_v40 (F := Ideal) x0 x1 x2
      = blockAttention scale1 scale2 shapeCasts_S4x16x4096x64_S4x16x64x64x64 shapeCasts_S4x16x64x64x64_S4x16x64x4096
          shapeCasts_S4x16x64x4096_S4x16x4096x64 x0 x1 x2 := by
  unfold val_main_v40 blockAttention
  rw [Ref2.ref_stage2]
  unfold val_main_v21 val_main_v22 val_main_v20
  rw [Ref1.ref_stage1]
  rfl

end Cert.BlockAttn.RefValue

end
-- ==== Proof.lean ====
/-
  A two-level block attention kernel against its plain reference, at the exact values.

  Both programs take queries, keys and values of shape [4, 16, 4096, 64] (batch, head, position, feature) and cut the
  4096 positions into 64 blocks of 64. Level one is attention inside each block; level two treats every block as one
  vector of 4096 numbers and is attention between the 64 blocks of a batch and head, weighing the level-one results.
  The kernel runs each level as one launch over the 64 (batch, head) pairs, narrows operands to bf16 on the way (the
  identity at the exact values) and multiplies the scores by the literals 1/8 and 1/64; the reference computes the
  same sums on whole arrays and the scales as 1 / √64 and 1 / √4096, whose roots are exact.

  Every module states one step:
    AttnSpec      the computation as one function of the three arrays, and the two scales;
    KernelLevel1/2 what a launch's body stores, entry by entry;    Level1Array/Level2Array the launch's whole output array;
    KernelRun, KernelValue  the kernel's run, its result read back to the arguments;
    RefLevel1/2, RefValue   the reference's stages and its result;
  and the claim joins the two runs at that one function. No finiteness of the inputs is used: the two sides are the
  same sums, maxima and quotients in the same arrangement.
-/
import proofs.«156608_j33835752357998_1_alg».proof.Defs
import proofs.«156608_j33835752357998_1_alg».proof.Proof.Gen.Kernel
import proofs.«156608_j33835752357998_1_alg».proof.Proof.Gen.Kernel.Skeleton
import proofs.«156608_j33835752357998_1_alg».proof.Proof.Gen.Kernel.Launch
import proofs.«156608_j33835752357998_1_alg».proof.Proof.Gen.Kernel.Points
import proofs.«156608_j33835752357998_1_alg».proof.Proof.Gen.Kernel.Frame
import proofs.«156608_j33835752357998_1_alg».proof.Proof.Gen.KernelIdeal
import proofs.«156608_j33835752357998_1_alg».proof.Proof.Gen.KernelIdeal.Skeleton
import proofs.«156608_j33835752357998_1_alg».proof.Proof.Gen.KernelIdeal.Launch
import proofs.«156608_j33835752357998_1_alg».proof.Proof.Gen.KernelIdeal.Points
import proofs.«156608_j33835752357998_1_alg».proof.Proof.Gen.KernelIdeal.Frame
import proofs.«156608_j33835752357998_1_alg».proof.Proof.Gen.ReferenceIdeal
import proofs.«156608_j33835752357998_1_alg».proof.Proof.Gen.Pre_finite_inputs
import proofs.«156608_j33835752357998_1_alg».proof.Proof.Gen.ReferenceIdeal.Run
import proofs.«156608_j33835752357998_1_alg».proof.Proof.Gen.ReferenceIdeal.Read
import proofs.«156608_j33835752357998_1_alg».proof.Proof.KernelValue
import proofs.«156608_j33835752357998_1_alg».proof.Proof.RefValue
import Idealize.ShloMosaic.Adequacy
import Idealize.ShloMosaic.Init

noncomputable section

namespace Cert.Proof

open Idealize.ShloMosaic Idealize.SL.Sem

/-- The kernel as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the two-level block attention of the
    arguments in their result buffers. -/
theorem algebraic : Cert.algebraic_KernelIdeal_ReferenceIdeal := by
  intro m ρ m' ρ' _ hagree
  refine ⟨_, Cert.BlockAttn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2]
  exact Cert.BlockAttn.RefValue.ref_value _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
